-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S600000x8 : Shape := ⟨2, ![600000, 8]⟩
abbrev S265x128 : Shape := ⟨2, ![265, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S600000x8 : S_.BroadcastsInDim S600000x8 (![] : Fin 0 → Fin S600000x8.rank)
  reducesTo_S600000x8_S_d0_1 : S600000x8.ReducesTo [0, 1] S_
  bcast_S_S265x128 : S_.BroadcastsInDim S265x128 (![] : Fin 0 → Fin S265x128.rank)
  reducesTo_S265x128_S_d0_1 : S265x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x128 .f32) (main_arg11 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_v13 : IVec S_ 1) (main_v16 : IVec S265x128 1) : IVec S_ 1 :=
  let main_c_5 : IVec S_ 1 := constantI S_ 1 1#1
  let main_v17 : IVec S_ 1 := (fun x v => Host.reduce IntOp.andi x v reducesTo_S265x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x3 .f32) (main_arg2 : IVec S2x600000 32) (main_arg3 : FVec F S600000x8 .f32) (main_arg4 : FVec F S265x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S600000x8 .f32 := Host.absf main_arg3
  let main_cst_2 : FVec F S_ .f32 := constant S_ .f32 0x7F800000#32
  let main_v10 : FVec F S600000x8 .f32 := broadcastInDim S600000x8 ![] bcast_S_S600000x8 main_cst_2
  let main_v11 : IVec S600000x8 1 := cmpf .olt main_v9 main_v10
  let main_c_3 : IVec S_ 1 := constantI S_ 1 1#1
  let main_v12 : IVec S_ 1 := (fun x v => Host.reduce IntOp.andi x v reducesTo_S600000x8_S_d0_1 h_S_) main_v11 main_c_3
  let main_v13 : IVec S_ 1 := andi main_v8 main_v12
  let main_v14 : FVec F S265x128 .f32 := Host.absf main_arg4
  let main_cst_4 : FVec F S_ .f32 := constant S_ .f32 0x7F800000#32
  let main_v15 : FVec F S265x128 .f32 := broadcastInDim S265x128 ![] bcast_S_S265x128 main_cst_4
  let main_v16 : IVec S265x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S600000x8 : Shape := ⟨2, ![600000, 8]⟩
abbrev S265x128 : Shape := ⟨2, ![265, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S600000x9 : Shape := ⟨2, ![600000, 9]⟩
abbrev S9x128 : Shape := ⟨2, ![9, 128]⟩
abbrev S4000x128 : Shape := ⟨2, ![4000, 128]⟩
abbrev S4000x9 : Shape := ⟨2, ![4000, 9]⟩
abbrev S1x128 : Shape := ⟨2, ![1, 128]⟩
abbrev S5000x128 : Shape := ⟨2, ![5000, 128]⟩

abbrev nBuf : Space → Nat
  | .hbm => 69
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S600000x8, .f32⟩
  | .hbm, ⟨4, _⟩ => ⟨S265x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x3, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x3, .f32⟩
  | .hbm, ⟨52, _⟩ => ⟨S600000x3, .f32⟩
  | .hbm, ⟨53, _⟩ => ⟨S600000x3, .f32⟩
  | .hbm, ⟨54, _⟩ => ⟨S_, .f32⟩
  | .hbm, ⟨55, _⟩ => ⟨S600000, .f32⟩
  | .hbm, ⟨56, _⟩ => ⟨S600000x1, .f32⟩
  | .hbm, ⟨57, _⟩ => ⟨S600000x9, .f32⟩
  | .hbm, ⟨58, _⟩ => ⟨S128x128, .f32⟩
  | .hbm, ⟨59, _⟩ => ⟨S128x128, .f32⟩
  | .hbm, ⟨60, _⟩ => ⟨S9x128, .f32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S128x128, .f32⟩
  | .hbm, ⟨67, _⟩ => ⟨S128x128, .f32⟩
  | .hbm, ⟨68, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x9, .f32⟩
  | .local _ .vmem, ⟨5, _⟩ => ⟨S4000x9, .f32⟩
  | .local _ .vmem, ⟨6, _⟩ => ⟨S128x128, .f32⟩
  | .local _ .vmem, ⟨7, _⟩ => ⟨S128x128, .f32⟩
  | .local _ .vmem, ⟨8, _⟩ => ⟨S9x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x1_S600000x8_S600000x9_d1 : Shape.Concatenates [S600000x1, S600000x8] S600000x9 1
  slices_S265x128_S128x128_0_0 : S265x128.Slices ![0, 0] S128x128
  slices_S265x128_S128x128_128_0 : S265x128.Slices ![128, 0] S128x128
  slices_S265x128_S9x128_256_0 : S265x128.Slices ![256, 0] S9x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x9_S4000x9_0_0 : ∀ a, (![0, 0] : Fin 2 → Nat) a + S4000x9.size a ≤ S4000x9.size a
  h_S4000x9 : 0 < S4000x9.numel
  shapeCasts_S4000x9_S4000x9 : S4000x9.ShapeCasts S4000x9
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S9x128_S9x128_0_0 : ∀ a, (![0, 0] : Fin 2 → Nat) a + S9x128.size a ≤ S9x128.size a
  h_S9x128 : 0 < S9x128.numel
  shapeCasts_S9x128_S9x128 : S9x128.ShapeCasts S9x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S4000x128_S128x128_S4000x128_1_0_0_1_n_n_wf : DotDims.WF S4000x128 S128x128 S4000x128 [1] [0] [0] [1] [] []
  dot_S4000x9_S9x128_S4000x128_1_0_0_1_n_n_wf : DotDims.WF S4000x9 S9x128 S4000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .f32 = 32 ∨ (Rect.block (s := S600000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x9.size a ≤ S600000x9.size a
  hwx0_2 : ∀ i : grid0.Coords, EltTy.bits .f32 = 32 ∨ (Rect.block (s := S600000x9) S4000x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x128.size a ≤ S9x128.size a
  hwx0_5 : ∀ i : grid0.Coords, EltTy.bits .f32 = 32 ∨ (Rect.block (s := S9x128) S9x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S600000x128.size a
  hwx0_9 : ∀ i : grid0.Coords, EltTy.bits .f32 = 32 ∨ (Rect.block (s := S600000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x9_S9x128_S4000x128_1_0_0_1_n_n : DotDims S4000x9 S9x128 S4000x128 where
  lhsContracting := [1]
  rhsContracting := [0]
  lhsNonContracting := [0]
  rhsNonContracting := [1]
  lhsBatch := []
  rhsBatch := []
  wf := dot_S4000x9_S9x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S9x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S600000x8 : Shape := ⟨2, ![600000, 8]⟩
abbrev S265x128 : Shape := ⟨2, ![265, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x265 : Shape := ⟨2, ![600000, 265]⟩
abbrev S1x128 : Shape := ⟨2, ![1, 128]⟩
abbrev S50000x256 : Shape := ⟨2, ![50000, 256]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S600000x8, .f32⟩
  | .hbm, ⟨4, _⟩ => ⟨S265x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x3, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x3, .f32⟩
  | .hbm, ⟨34, _⟩ => ⟨S600000x3, .f32⟩
  | .hbm, ⟨35, _⟩ => ⟨S600000x3, .f32⟩
  | .hbm, ⟨36, _⟩ => ⟨S_, .f32⟩
  | .hbm, ⟨37, _⟩ => ⟨S600000, .f32⟩
  | .hbm, ⟨38, _⟩ => ⟨S600000x1, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x265, .f32⟩
  | .hbm, ⟨58, _⟩ => ⟨S600000x128, .f32⟩
  | .hbm, ⟨59, _⟩ => ⟨S1x128, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S600000x128, .f32⟩
  | .hbm, ⟨64, _⟩ => ⟨S600000x128, .f32⟩
  | .hbm, ⟨65, _⟩ => ⟨S600000x128, .f32⟩
  | .hbm, ⟨66, _⟩ => ⟨S1x128, .f32⟩
  | .hbm, ⟨67, _⟩ => ⟨S600000x128, .f32⟩
  | .hbm, ⟨68, _⟩ => ⟨S600000x128, .f32⟩
  | .hbm, ⟨69, _⟩ => ⟨S_, .f32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S50000x256, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_cst : Ref sig .tc := ⟨.hbm, 62, rfl⟩
abbrev main_call0_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call1_cst : Ref sig .tc := ⟨.hbm, 69, rfl⟩
abbrev main_call1_v0 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x8_S600000x265_d1 : Shape.Concatenates [S600000x128, S600000x128, S600000x1, S600000x8] S600000x265 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x265_S265x128_S600000x128_1_0_0_1_n_n_wf : DotDims.WF S600000x265 S265x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x265_S265x128_S600000x128_1_0_0_1_n_n : DotDims S600000x265 S265x128 S600000x128 where
  lhsContracting := [1]
  rhsContracting := [0]
  lhsNonContracting := [0]
  rhsNonContracting := [1]
  lhsBatch := []
  rhsBatch := []
  wf := dot_S600000x265_S265x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is two kernel regions among stretches of host operations.  Its buffer contents at the segment
  boundaries are a fold from the launch memory: after the first host stretch, after the edge region (its output array
  at what the write-backs leave), after the second host stretch, after the node region.  Every weakly fair execution
  ends with every unscoped buffer at the last boundary's contents; read at the result buffer that is the node
  region's output array after its last write-back, and read at an argument it is the argument as launched.
-/
import proofs.«167818_j2774548873773_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the node region's output array after the last grid point. -/
theorem result_at_exit (c : Dev nD) :
    W4 m ρ c (Proc.devRef .tc main_v46) = (dat1 (V3 m ρ) c).arrAt 7 cfg1.N := W4_arr m ρ c 7

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«167818_j2774548873773_2_alg».proof.Proof.LibMatmulPlain
import proofs.«167818_j2774548873773_2_alg».proof.Proof.LibDotsNT
import proofs.«167818_j2774548873773_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.Layers.lean ====
/-
  The two small networks of one message-passing step, as functions of whole arrays on the extended reals.

  Edge network.  For per-edge arrays XR, XC : [a, k1], [a, k2] (the features of an edge's two end points) and
  RE : [a, k3] (its squared length followed by its attributes), weights W1, W2, W3 with a bias row B1, and a second layer
  W4 with bias row B2, the message of edge r is
      max( max( XR W1 + XC W2 + RE W3 + B1 , 0 ) W4 + B2 , 0 )      (row r).
  Node network.  For per-node arrays X, A (a node's features and the sum of the messages sent to it),
      max( X W1 + A W2 + B1 , 0 ) W3 + B2                            (row r).
  Both are built from the matrix product `Cert.Dense.prod`.  Row r of either result depends only on row r of the
  per-row operands: this is what lets a block of consecutive rows be computed from the same block of the operands.
-/
import Idealize.ShloMosaic.PureOps.Ideal.Laws
import proofs.«167818_j2774548873773_2_alg».proof.Proof.LibDenseLayer

noncomputable section

open scoped BigOperators

namespace Cert.Mp

open Idealize.ShloMosaic Idealize.ShloMosaic.ValueIdx Cert.Dense

variable {a a' k1 k2 k3 h n : ℕ}

/-- The f32 word of zero as an extended real (never evaluated: the same word stands on both sides). -/
def z : EReal := Ideal.ofBits .f32 0x00000000#32

/-- The rectifier, entry by entry: the larger of the entry and zero. -/
def relu {s : Shape} (x : s.Idx → EReal) : s.Idx → EReal := fun i => max (x i) z

/-- The edge network's first layer before the rectifier: three products summed left to right, plus the bias row. -/
def hidden3 (XR : (⟨2, ![a, k1]⟩ : Shape).Idx → EReal) (XC : (⟨2, ![a, k2]⟩ : Shape).Idx → EReal)
    (RE : (⟨2, ![a, k3]⟩ : Shape).Idx → EReal) (W1 : (⟨2, ![k1, h]⟩ : Shape).Idx → EReal)
    (W2 : (⟨2, ![k2, h]⟩ : Shape).Idx → EReal) (W3 : (⟨2, ![k3, h]⟩ : Shape).Idx → EReal)
    (B1 : (⟨2, ![1, h]⟩ : Shape).Idx → EReal) : (⟨2, ![a, h]⟩ : Shape).Idx → EReal :=
  fun i => ((prod XR W1 i + prod XC W2 i) + prod RE W3 i) + B1 (ix2 (0 : Fin 1) (i 1))

/-- The node network's first layer before the rectifier: two products summed, plus the bias row. -/
def hidden2 (X : (⟨2, ![a, k1]⟩ : Shape).Idx → EReal) (A : (⟨2, ![a, k2]⟩ : Shape).Idx → EReal)
    (W1 : (⟨2, ![k1, h]⟩ : Shape).Idx → EReal) (W2 : (⟨2, ![k2, h]⟩ : Shape).Idx → EReal)
    (B1 : (⟨2, ![1, h]⟩ : Shape).Idx → EReal) : (⟨2, ![a, h]⟩ : Shape).Idx → EReal :=
  fun i => (prod X W1 i + prod A W2 i) + B1 (ix2 (0 : Fin 1) (i 1))

/-- The edge network: both layers rectified. -/
def edge (XR : (⟨2, ![a, k1]⟩ : Shape).Idx → EReal) (XC : (⟨2, ![a, k2]⟩ : Shape).Idx → EReal)
    (RE : (⟨2, ![a, k3]⟩ : Shape).Idx → EReal) (W1 : (⟨2, ![k1, h]⟩ : Shape).Idx → EReal)
    (W2 : (⟨2, ![k2, h]⟩ : Shape).Idx → EReal) (W3 : (⟨2, ![k3, h]⟩ : Shape).Idx → EReal)
    (B1 : (⟨2, ![1, h]⟩ : Shape).Idx → EReal) (W4 : (⟨2, ![h, n]⟩ : Shape).Idx → EReal)
    (B2 : (⟨2, ![1, n]⟩ : Shape).Idx → EReal) : (⟨2, ![a, n]⟩ : Shape).Idx → EReal :=
  relu (biased (relu (hidden3 XR XC RE W1 W2 W3 B1)) W4 B2)

/-- The node network: the first layer rectified, the second not. -/
def node (X : (⟨2, ![a, k1]⟩ : Shape).Idx → EReal) (A : (⟨2, ![a, k2]⟩ : Shape).Idx → EReal)
    (W1 : (⟨2, ![k1, h]⟩ : Shape).Idx → EReal) (W2 : (⟨2, ![k2, h]⟩ : Shape).Idx → EReal)
    (B1 : (⟨2, ![1, h]⟩ : Shape).Idx → EReal) (W3 : (⟨2, ![h, n]⟩ : Shape).Idx → EReal)
    (B2 : (⟨2, ![1, n]⟩ : Shape).Idx → EReal) : (⟨2, ![a, n]⟩ : Shape).Idx → EReal :=
  biased (relu (hidden2 X A W1 W2 B1)) W3 B2

/-! ## An entry depends only on its row of the per-row operands -/

/-- A product's entry (p, q) of one array and entry (r, q) of another agree when row p of the first is row r of the second. -/
theorem prod_row {k : ℕ} (x : (⟨2, ![a, k]⟩ : Shape).Idx → EReal) (X : (⟨2, ![a', k]⟩ : Shape).Idx → EReal)
    (W : (⟨2, ![k, n]⟩ : Shape).Idx → EReal) (p : Fin a) (r : Fin a') (q : Fin n)
    (hx : ∀ c : Fin k, x (ix2 p c) = X (ix2 r c)) : prod x W (ix2 p q) = prod X W (ix2 r q) := by
  rw [prod_ix2, prod_ix2]
  exact Finset.sum_congr rfl fun c _ => by rw [hx c]

/-- A rectified layer followed by a biased product: entry (p, q) from row p of the layer's input. -/
theorem biased_relu_row (H : (⟨2, ![a, h]⟩ : Shape).Idx → EReal) (H' : (⟨2, ![a', h]⟩ : Shape).Idx → EReal)
    (W : (⟨2, ![h, n]⟩ : Shape).Idx → EReal) (B : (⟨2, ![1, n]⟩ : Shape).Idx → EReal) (p : Fin a) (r : Fin a') (q : Fin n)
    (hH : ∀ c : Fin h, H (ix2 p c) = H' (ix2 r c)) :
    biased (relu H) W B (ix2 p q) = biased (relu H') W B (ix2 r q) := by
  show prod (relu H) W (ix2 p q) + B (ix2 (0 : Fin 1) q) = prod (relu H') W (ix2 r q) + B (ix2 (0 : Fin 1) q)
  rw [prod_row (relu H) (relu H') W p r q fun c => by
    show max (H (ix2 p c)) z = max (H' (ix2 r c)) z
    rw [hH c]]

/-- The edge network's entry (p, q) over arrays whose rows p are rows r of taller arrays is the taller arrays' entry (r, q). -/
theorem edge_row (xr : (⟨2, ![a, k1]⟩ : Shape).Idx → EReal) (xc : (⟨2, ![a, k2]⟩ : Shape).Idx → EReal)
    (re : (⟨2, ![a, k3]⟩ : Shape).Idx → EReal) (XR : (⟨2, ![a', k1]⟩ : Shape).Idx → EReal)
    (XC : (⟨2, ![a', k2]⟩ : Shape).Idx → EReal) (RE : (⟨2, ![a', k3]⟩ : Shape).Idx → EReal)
    (W1 : (⟨2, ![k1, h]⟩ : Shape).Idx → EReal) (W2 : (⟨2, ![k2, h]⟩ : Shape).Idx → EReal)
    (W3 : (⟨2, ![k3, h]⟩ : Shape).Idx → EReal) (B1 : (⟨2, ![1, h]⟩ : Shape).Idx → EReal)
    (W4 : (⟨2, ![h, n]⟩ : Shape).Idx → EReal) (B2 : (⟨2, ![1, n]⟩ : Shape).Idx → EReal)
    (p : Fin a) (r : Fin a') (q : Fin n)
    (h1 : ∀ c, xr (ix2 p c) = XR (ix2 r c)) (h2 : ∀ c, xc (ix2 p c) = XC (ix2 r c))
    (h3 : ∀ c, re (ix2 p c) = RE (ix2 r c)) :
    edge xr xc re W1 W2 W3 B1 W4 B2 (ix2 p q) = edge XR XC RE W1 W2 W3 B1 W4 B2 (ix2 r q) := by
  show max (biased (relu (hidden3 xr xc re W1 W2 W3 B1)) W4 B2 (ix2 p q)) z
    = max (biased (relu (hidden3 XR XC RE W1 W2 W3 B1)) W4 B2 (ix2 r q)) z
  rw [biased_relu_row _ (hidden3 XR XC RE W1 W2 W3 B1) W4 B2 p r q fun c => by
    show ((prod xr W1 (ix2 p c) + prod xc W2 (ix2 p c)) + prod re W3 (ix2 p c)) + B1 (ix2 (0 : Fin 1) c)
      = ((prod XR W1 (ix2 r c) + prod XC W2 (ix2 r c)) + prod RE W3 (ix2 r c)) + B1 (ix2 (0 : Fin 1) c)
    rw [prod_row xr XR W1 p r c h1, prod_row xc XC W2 p r c h2, prod_row re RE W3 p r c h3]]

/-- The node network's entry (p, q) over arrays whose rows p are rows r of taller arrays is the taller arrays' entry (r, q). -/
theorem node_row (x : (⟨2, ![a, k1]⟩ : Shape).Idx → EReal) (ag : (⟨2, ![a, k2]⟩ : Shape).Idx → EReal)
    (X : (⟨2, ![a', k1]⟩ : Shape).Idx → EReal) (A : (⟨2, ![a', k2]⟩ : Shape).Idx → EReal)
    (W1 : (⟨2, ![k1, h]⟩ : Shape).Idx → EReal) (W2 : (⟨2, ![k2, h]⟩ : Shape).Idx → EReal)
    (B1 : (⟨2, ![1, h]⟩ : Shape).Idx → EReal) (W3 : (⟨2, ![h, n]⟩ : Shape).Idx → EReal)
    (B2 : (⟨2, ![1, n]⟩ : Shape).Idx → EReal) (p : Fin a) (r : Fin a') (q : Fin n)
    (h1 : ∀ c, x (ix2 p c) = X (ix2 r c)) (h2 : ∀ c, ag (ix2 p c) = A (ix2 r c)) :
    node x ag W1 W2 B1 W3 B2 (ix2 p q) = node X A W1 W2 B1 W3 B2 (ix2 r q) := by
  show biased (relu (hidden2 x ag W1 W2 B1)) W3 B2 (ix2 p q) = biased (relu (hidden2 X A W1 W2 B1)) W3 B2 (ix2 r q)
  exact biased_relu_row _ (hidden2 X A W1 W2 B1) W3 B2 p r q fun c => by
    show (prod x W1 (ix2 p c) + prod ag W2 (ix2 p c)) + B1 (ix2 (0 : Fin 1) c)
      = (prod X W1 (ix2 r c) + prod A W2 (ix2 r c)) + B1 (ix2 (0 : Fin 1) c)
    rw [prod_row x X W1 p r c h1, prod_row ag A W2 p r c h2]

end Cert.Mp

end
-- ==== Proof.Spellings.lean ====
/-
  The two spellings of the networks' layers, each equal to the layer as a function of whole arrays.

  A grid point's tile computes a product on the matrix unit from operands rounded to bfloat16 (no change to an
  extended real) into a zero accumulator, lays a bias row over the rows with a broadcast and rectifies against a splat
  zero.  The host computes the product with a dot_general, lays the bias row with broadcast_in_dim and rectifies
  against a zero laid out by broadcast_in_dim from a scalar.  Entry by entry these are the same sums, sums and maxima.
-/
import Idealize.ShloMosaic.Lib.ValueLayout
import proofs.«167818_j2774548873773_2_alg».proof.Proof.Layers

noncomputable section

open scoped BigOperators

namespace Cert.Mp

open Idealize.ShloMosaic Idealize.ShloMosaic.ValueIdx Cert.Dense

variable {a k h n : ℕ}

/-- The dimension numbers of a plain product [a, k] x [k, n]: contract the left operand's second axis with the right
    operand's first, keep the other two, no batch axes. -/
structure PlainDims (d : DotDims ⟨2, ![a, k]⟩ ⟨2, ![k, n]⟩ ⟨2, ![a, n]⟩) : Prop where
  lc : d.lhsContracting = [1]
  rc : d.rhsContracting = [0]
  ln : d.lhsNonContracting = [0]
  rn : d.rhsNonContracting = [1]
  lb : d.lhsBatch = []
  rb : d.rhsBatch = []

/-- The matrix unit's product of operands rounded to bfloat16, into zero, is the product. -/
theorem tile_prod (d : DotDims ⟨2, ![a, k]⟩ ⟨2, ![k, n]⟩ ⟨2, ![a, n]⟩) (hd : PlainDims d)
    (x : FVec Ideal ⟨2, ![a, k]⟩ .f32) (W : FVec Ideal ⟨2, ![k, n]⟩ .f32) (hb : FTy.bf16.bits < FTy.f32.bits) :
    matmul d none (truncf .bf16 x hb) (truncf .bf16 W hb) (constant (F := Ideal) ⟨2, ![a, n]⟩ .f32 0x00000000#32)
      = prod x W :=
  matmul_eq_prod d hd.lc hd.rc hd.ln hd.rn hd.lb hd.rb x W hb

/-- The host's dot_general is the product. -/
theorem host_prod (d : DotDims ⟨2, ![a, k]⟩ ⟨2, ![k, n]⟩ ⟨2, ![a, n]⟩) (hd : PlainDims d)
    (x : FVec Ideal ⟨2, ![a, k]⟩ .f32) (W : FVec Ideal ⟨2, ![k, n]⟩ .f32) :
    Host.dotGeneral (F := Ideal) d none x W = prod x W :=
  dotGeneral_eq_prod d hd.lc hd.rc hd.ln hd.rn hd.lb hd.rb x W

/-- The tile's bias: a row laid over the rows by a broadcast. -/
theorem tile_bias (P : FVec Ideal ⟨2, ![a, n]⟩ .f32) (B : FVec Ideal ⟨2, ![1, n]⟩ .f32)
    (hb : (⟨2, ![1, n]⟩ : Shape).Broadcasts ⟨2, ![a, n]⟩) :
    addf P (broadcastTo ⟨2, ![a, n]⟩ B hb) = fun i => P i + B (ix2 (0 : Fin 1) (i 1)) := by
  funext i
  obtain ⟨p, q, rfl⟩ : ∃ (p : Fin a) (q : Fin n), i = ix2 p q := ⟨i 0, i 1, eq_ix2 i⟩
  rw [addf_apply, broadcastTo_1b_ab_apply]
  rfl

/-- The host's bias: a row laid over the rows by broadcast_in_dim. -/
theorem host_bias (P : FVec Ideal ⟨2, ![a, n]⟩ .f32) (B : FVec Ideal ⟨2, ![1, n]⟩ .f32)
    (hB : (⟨2, ![1, n]⟩ : Shape).BroadcastsInDim ⟨2, ![a, n]⟩ ![0, 1]) :
    addf P (broadcastInDim ⟨2, ![a, n]⟩ ![0, 1] hB B) = fun i => P i + B (ix2 (0 : Fin 1) (i 1)) := by
  funext i
  obtain ⟨p, q, rfl⟩ : ∃ (p : Fin a) (q : Fin n), i = ix2 p q := ⟨i 0, i 1, eq_ix2 i⟩
  rw [host_biased]
  rfl

/-- The tile's rectifier: the maximum with a splat zero. -/
theorem tile_relu {s : Shape} (Y : FVec Ideal s .f32) :
    maximumf Y (broadcast s (Scalar.ofBits (F := Ideal) .f32 0x00000000#32)) = relu Y := rfl

/-- The host's rectifier: the maximum with a scalar zero laid over the array by broadcast_in_dim. -/
theorem host_relu {s : Shape} (Y : FVec Ideal s .f32) (hz : (⟨0, ![]⟩ : Shape).BroadcastsInDim s ![]) :
    maximumf Y (broadcastInDim s ![] hz (constant (F := Ideal) ⟨0, ![]⟩ .f32 0x00000000#32)) = relu Y := by
  funext i
  rw [maximumf_apply]
  exact congrArg (max (Y i))
    (broadcastInDim_apply (s := ⟨0, ![]⟩) (t := s) ![] hz
      (constant (F := Ideal) ⟨0, ![]⟩ .f32 0x00000000#32) i (fun d => d.elim0) (fun ax => ax.elim0))

end Cert.Mp

end
-- ==== Proof.Tile.lean ====
/-
  What one grid point's tile leaves in its output block, as the networks of Layers applied to the point's input blocks.

  The edge kernel's tile reads its three per-edge blocks, the three cuts of the first weight matrix, the bias vectors and
  the second weight matrix, and stores the edge network of them; the node kernel's tile stores the node network of its
  blocks.  Each tile is one store over its whole block, so the block after the body is that one stored value.
-/
import proofs.«167818_j2774548873773_2_alg».proof.Proof.Gen.KernelIdeal.Frame
import proofs.«167818_j2774548873773_2_alg».proof.Proof.Spellings

set_option maxRecDepth 16384

noncomputable section

namespace Cert.KernelIdeal.Tile

open Idealize.ShloMosaic Idealize.ShloMosaic.ValueIdx Cert.KernelIdeal Cert.KernelIdeal.Gen Cert.Dense Cert.Mp

theorem zero2 : (![0, 0] : Fin 2 → Nat) = fun _ => 0 := funext fun a => by fin_cases a <;> rfl
theorem zero1 : (![0] : Fin 1 → Nat) = fun _ => 0 := funext fun a => by fin_cases a <;> rfl

theorem plain_4000_128 : PlainDims dot_S4000x128_S128x128_S4000x128_1_0_0_1_n_n := ⟨rfl, rfl, rfl, rfl, rfl, rfl⟩
theorem plain_4000_9 : PlainDims dot_S4000x9_S9x128_S4000x128_1_0_0_1_n_n := ⟨rfl, rfl, rfl, rfl, rfl, rfl⟩
theorem plain_5000_128 : PlainDims dot_S5000x128_S128x128_S5000x128_1_0_0_1_n_n := ⟨rfl, rfl, rfl, rfl, rfl, rfl⟩

/-- The edge tile's stored value is the edge network of the loaded blocks. -/
theorem edge_payload (v0 v3 : Vec Ideal S4000x128 .f32) (v6 : Vec Ideal S4000x9 .f32) (v9 v12 : Vec Ideal S128x128 .f32)
    (v15 : Vec Ideal S9x128 .f32) (v18 : Vec Ideal S128 .f32) (v30 : Vec Ideal S128x128 .f32) (v32 : Vec Ideal S128 .f32) :
    k0_pay1 (F := Ideal) (k0_pay2 v0 v3 v6 v9 v12 v15 v18 v30 v32) (Scalar.ofBits .f32 0x00000000#32)
      = edge v0 v3 v6 v9 v12 v15 (shapeCast S1x128 v18 shapeCasts_S128_S1x128) v30
          (shapeCast S1x128 v32 shapeCasts_S128_S1x128) := by
  unfold k0_pay1 k0_pay2
  simp only [shapeCast_self]
  rw [tile_prod _ plain_4000_128 v0 v9, tile_prod _ plain_4000_128 v3 v12, tile_prod _ plain_4000_9 v6 v15,
    tile_bias, tile_relu, tile_prod _ plain_4000_128 _ v30, tile_bias, tile_relu]
  rfl

/-- The node tile's stored value is the node network of the loaded blocks. -/
theorem node_payload (v0 v2 : Vec Ideal S5000x128 .f32) (v5 v8 : Vec Ideal S128x128 .f32) (v11 : Vec Ideal S128 .f32)
    (v21 : Vec Ideal S128x128 .f32) (v23 : Vec Ideal S128 .f32) :
    k1_pay1 (F := Ideal) v0 v2 v5 v8 v11 v21 v23
      = node v0 v2 v5 v8 (shapeCast S1x128 v11 shapeCasts_S128_S1x128) v21 (shapeCast S1x128 v23 shapeCasts_S128_S1x128) := by
  unfold k1_pay1
  simp only [shapeCast_self]
  rw [tile_prod _ plain_5000_128 v0 v5, tile_prod _ plain_5000_128 v2 v8, tile_bias, tile_relu,
    tile_prod _ plain_5000_128 _ v21, tile_bias]
  rfl

/-- The edge kernel's output block after the body. -/
theorem edge_block (x0 x1 : Vec Ideal S4000x128 .f32) (x2 : Vec Ideal S4000x9 .f32) (x3 x4 : Vec Ideal S128x128 .f32)
    (x5 : Vec Ideal S9x128 .f32) (x6 : Vec Ideal S128 .f32) (x7 : Vec Ideal S128x128 .f32) (x8 : Vec Ideal S128 .f32) :
    out0_9 (F := Ideal) x0 x1 x2 x3 x4 x5 x6 x7 x8
      = edge x0 x1 x2 x3 x4 x5 (shapeCast S1x128 x6 shapeCasts_S128_S1x128) x7 (shapeCast S1x128 x8 shapeCasts_S128_S1x128) := by
  unfold out0_9
  rw [View.canon_unit_zero zero2]
  simp only [View.ld_unit_zero (S := S4000x128) zero2, View.ld_unit_zero (S := S4000x9) zero2,
    View.ld_unit_zero (S := S128x128) zero2, View.ld_unit_zero (S := S9x128) zero2, View.ld_unit_zero (S := S128) zero1]
  exact edge_payload x0 x1 x2 x3 x4 x5 x6 x7 x8

/-- The node kernel's output block after the body. -/
theorem node_block (x0 x1 : Vec Ideal S5000x128 .f32) (x2 x3 : Vec Ideal S128x128 .f32) (x4 : Vec Ideal S128 .f32)
    (x5 : Vec Ideal S128x128 .f32) (x6 : Vec Ideal S128 .f32) :
    out1_7 (F := Ideal) x0 x1 x2 x3 x4 x5 x6
      = node x0 x1 x2 x3 (shapeCast S1x128 x4 shapeCasts_S128_S1x128) x5 (shapeCast S1x128 x6 shapeCasts_S128_S1x128) := by
  unfold out1_7
  rw [View.canon_unit_zero zero2]
  simp only [View.ld_unit_zero (S := S5000x128) zero2, View.ld_unit_zero (S := S128x128) zero2,
    View.ld_unit_zero (S := S128) zero1]
  exact node_payload x0 x1 x2 x3 x4 x5 x6

end Cert.KernelIdeal.Tile

end
-- ==== Proof.EdgeRegion.lean ====
/-
  The edge region's output array after its grid.

  The grid has 150 points; point t works on rows 4000 t .. 4000 t + 3999 of the three per-edge arrays and writes the same
  rows of the output, while the weights and biases are read whole at every point.  A row of the edge network depends only
  on the same row of the per-edge operands, so what point t writes back is block t of the edge network of the WHOLE
  arrays; the 150 blocks tile the output, hence after the grid the output array is that network of the whole arrays as
  the region found them.
-/
import proofs.«167818_j2774548873773_2_alg».proof.Proof.Gen.KernelIdeal.Frame
import proofs.«167818_j2774548873773_2_alg».proof.Proof.Tile
import Idealize.ShloMosaic.Lib.Pipeline.Value

set_option maxRecDepth 16384

noncomputable section

namespace Cert.KernelIdeal.EdgeRegion

open Idealize.ShloMosaic Idealize.ShloMosaic.TcCoe Idealize.ShloMosaic.ValueIdx Idealize.SL.Sem
open Cert.KernelIdeal Cert.KernelIdeal.Gen Cert.Mp
open Idealize.ShloMosaic.Pipeline (Dat Cfg Window)

variable (V : (c : Dev nD) → (b : Ref sig .tc) → Buf (Elt Ideal) ((c : Thread nD τ).loc b)) (c : Dev nD)

/-- The printed index maps over the grid: the per-edge windows and the output move one block of rows per point, the
    weight and bias windows stay at block zero. -/
theorem points : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem point_lt (t : Fin cfg0.N) : t.val < 150 := lt_of_lt_of_eq t.isLt N_0

/-- The edge network of the whole arrays as the region finds them. -/
def whole : S600000x128.Idx → EReal :=
  edge (V c main_v10 : S600000x128.Idx → EReal) (V c main_v17 : S600000x128.Idx → EReal)
    (V c main_v36 : S600000x9.Idx → EReal) (V c main_v37 : S128x128.Idx → EReal) (V c main_v38 : S128x128.Idx → EReal)
    (V c main_v39 : S9x128.Idx → EReal) (shapeCast S1x128 (V c main_arg5 : S128.Idx → EReal) shapeCasts_S128_S1x128)
    (V c main_arg6 : S128x128.Idx → EReal) (shapeCast S1x128 (V c main_arg7 : S128.Idx → EReal) shapeCasts_S128_S1x128)

/-! ## The windows read whole -/

theorem block3 (t : Fin cfg0.N) : iblk0 V c 3 t = (V c main_v37 : S128x128.Idx → EReal) := by
  obtain ⟨-, -, -, -, -, -, e0, e1, -⟩ := points t
  funext y
  show (V c main_v37 : S128x128.Idx → EReal) (((cfg0.win 3).blk t).view.emb y) = V c main_v37 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem block4 (t : Fin cfg0.N) : iblk0 V c 4 t = (V c main_v38 : S128x128.Idx → EReal) := by
  obtain ⟨-, -, -, -, -, -, -, -, e0, e1, -⟩ := points t
  funext y
  show (V c main_v38 : S128x128.Idx → EReal) (((cfg0.win 4).blk t).view.emb y) = V c main_v38 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem block5 (t : Fin cfg0.N) : iblk0 V c 5 t = (V c main_v39 : S9x128.Idx → EReal) := by
  obtain ⟨-, -, -, -, -, -, -, -, -, -, e0, e1, -⟩ := points t
  funext y
  show (V c main_v39 : S9x128.Idx → EReal) (((cfg0.win 5).blk t).view.emb y) = V c main_v39 y
  refine congrArg _ (funext fun a => Fin.ext ?_)
  match a with
  | ⟨0, _⟩ => show win0_5.index t (0 : Fin 2) * 9 + 1 * (y 0).val = (y 0).val; omega
  | ⟨1, _⟩ => show win0_5.index t (1 : Fin 2) * 128 + 1 * (y 1).val = (y 1).val; omega

theorem block6 (t : Fin cfg0.N) : iblk0 V c 6 t = (V c main_arg5 : S128.Idx → EReal) := by
  obtain ⟨-, -, -, -, -, -, -, -, -, -, -, -, e0, -⟩ := points t
  funext y
  show (V c main_arg5 : S128.Idx → EReal) (((cfg0.win 6).blk t).view.emb y) = V c main_arg5 y
  refine congrArg _ (funext fun a => Fin.ext ?_)
  match a with
  | ⟨0, _⟩ => show win0_6.index t (0 : Fin 1) * 128 + 1 * (y 0).val = (y 0).val; omega

theorem block7 (t : Fin cfg0.N) : iblk0 V c 7 t = (V c main_arg6 : S128x128.Idx → EReal) := by
  obtain ⟨-, -, -, -, -, -, -, -, -, -, -, -, -, e0, e1, -⟩ := points t
  funext y
  show (V c main_arg6 : S128x128.Idx → EReal) (((cfg0.win 7).blk t).view.emb y) = V c main_arg6 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem block8 (t : Fin cfg0.N) : iblk0 V c 8 t = (V c main_arg7 : S128.Idx → EReal) := by
  obtain ⟨-, -, -, -, -, -, -, -, -, -, -, -, -, -, -, e0, -⟩ := points t
  funext y
  show (V c main_arg7 : S128.Idx → EReal) (((cfg0.win 8).blk t).view.emb y) = V c main_arg7 y
  refine congrArg _ (funext fun a => Fin.ext ?_)
  match a with
  | ⟨0, _⟩ => show win0_8.index t (0 : Fin 1) * 128 + 1 * (y 0).val = (y 0).val; omega

/-! ## The per-edge windows: row p of block t is row 4000 t + p of the array -/

theorem rows0 (t : Fin cfg0.N) (p : Fin 4000) (r : Fin 600000) (hr : r.val = t.val * 4000 + p.val) (k : Fin 128) :
    iblk0 V c 0 t (ix2 p k) = (V c main_v10 : S600000x128.Idx → EReal) (ix2 r k) := by
  obtain ⟨e0, e1, -⟩ := points t
  show (V c main_v10 : S600000x128.Idx → EReal) (((cfg0.win 0).blk t).view.emb (ix2 p k)) = _
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

theorem rows1 (t : Fin cfg0.N) (p : Fin 4000) (r : Fin 600000) (hr : r.val = t.val * 4000 + p.val) (k : Fin 128) :
    iblk0 V c 1 t (ix2 p k) = (V c main_v17 : S600000x128.Idx → EReal) (ix2 r k) := by
  obtain ⟨-, -, e0, e1, -⟩ := points t
  show (V c main_v17 : S600000x128.Idx → EReal) (((cfg0.win 1).blk t).view.emb (ix2 p k)) = _
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

theorem rows2 (t : Fin cfg0.N) (p : Fin 4000) (r : Fin 600000) (hr : r.val = t.val * 4000 + p.val) (k : Fin 9) :
    iblk0 V c 2 t (ix2 p k) = (V c main_v36 : S600000x9.Idx → EReal) (ix2 r k) := by
  obtain ⟨-, -, -, -, e0, e1, -⟩ := points t
  show (V c main_v36 : S600000x9.Idx → EReal) (((cfg0.win 2).blk t).view.emb (ix2 p k)) = _
  refine congrArg _ (funext fun a => Fin.ext ?_)
  match a with
  | ⟨0, _⟩ => show win0_2.index t (0 : Fin 2) * 4000 + 1 * p.val = r.val; omega
  | ⟨1, _⟩ => show win0_2.index t (1 : Fin 2) * 9 + 1 * k.val = k.val; omega

/-! ## What a point writes back, the cover, the array -/

/-- What point t writes back is block t of the edge network of the whole arrays. -/
theorem flushed (t : Fin cfg0.N) :
    (dat0 V c).flushed 9 t = ((cfg0.win 9).blk t).view.read (Elt Ideal) (whole V c) := by
  show (cfg0.win 9).cut (grid0.coords t) ((dat0 V c).after 9 t) = _
  rw [after0_9, Tile.edge_block, block3, block4, block5, block6, block7, block8]
  obtain ⟨-, -, -, -, -, -, -, -, -, -, -, -, -, -, -, -, e0, e1⟩ := points t
  have ht := point_lt t
  funext j
  obtain ⟨p, q, rfl⟩ : ∃ (p : Fin 4000) (q : Fin 128), j = ix2 p q := ⟨j 0, j 1, eq_ix2 j⟩
  have hr : t.val * 4000 + p.val < 600000 := by have := p.isLt; omega
  have he : ((cfg0.win 9).blk t).view.emb (ix2 p q) = ix2 (⟨t.val * 4000 + p.val, hr⟩ : Fin 600000) q := by
    funext a; apply Fin.ext
    match a with
    | ⟨0, _⟩ => show win0_9.index t (0 : Fin 2) * 4000 + 1 * p.val = t.val * 4000 + p.val; omega
    | ⟨1, _⟩ => show win0_9.index t (1 : Fin 2) * 128 + 1 * q.val = q.val; omega
  show edge (iblk0 V c 0 t) (iblk0 V c 1 t) (iblk0 V c 2 t) _ _ _ _ _ _ (ix2 p q)
    = whole V c (((cfg0.win 9).blk t).view.emb (ix2 p q))
  rw [he]
  exact edge_row _ _ _ _ _ _ _ _ _ _ _ _ p ⟨t.val * 4000 + p.val, hr⟩ q
    (rows0 V c t p _ rfl) (rows1 V c t p _ rfl) (rows2 V c t p _ rfl)

/-- An index is in point t's block iff each coordinate is in the block's range on its axis. -/
theorem mem_block (t : Fin cfg0.N) (i : S600000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v40).slice (win0_9.rect t)).set ↔ _
  rw [View.set_slice_whole, Rect.mem_set_unit]
  exact Iff.rfl

/-- The output array after the grid is the edge network of the whole arrays as the region found them. -/
theorem array : (dat0 V c).arrAt 9 cfg0.N = whole V c :=
  (dat0 V c).arrAt_eq_of_cover 9 (whole V c) (fun t _ => flushed V c t) fun i => by
    have hi0 : (i 0).val < 600000 := (i 0).isLt
    have hi1 : (i 1).val < 128 := (i 1).isLt
    have htN : (i 0).val / 4000 < cfg0.N := lt_of_lt_of_eq (by omega : (i 0).val / 4000 < 150) N_0.symm
    refine ⟨⟨(i 0).val / 4000, htN⟩, flush0_9 _, ?_⟩
    obtain ⟨-, -, -, -, -, -, -, -, -, -, -, -, -, -, -, -, e0, e1⟩ := points ⟨(i 0).val / 4000, htN⟩
    rw [mem_block]
    intro a
    match a with
    | ⟨0, _⟩ =>
      show win0_9.index ⟨(i 0).val / 4000, htN⟩ (0 : Fin 2) * 4000 ≤ (i 0).val
        ∧ (i 0).val < win0_9.index ⟨(i 0).val / 4000, htN⟩ (0 : Fin 2) * 4000 + 4000
      rw [e0]; show (i 0).val / 4000 * 4000 ≤ (i 0).val ∧ (i 0).val < (i 0).val / 4000 * 4000 + 4000; omega
    | ⟨1, _⟩ =>
      show win0_9.index ⟨(i 0).val / 4000, htN⟩ (1 : Fin 2) * 128 ≤ (i 1).val
        ∧ (i 1).val < win0_9.index ⟨(i 0).val / 4000, htN⟩ (1 : Fin 2) * 128 + 128
      rw [e1]; omega

end Cert.KernelIdeal.EdgeRegion

end
-- ==== Proof.NodeRegion.lean ====
/-
  The node region's output array after its grid.

  The grid has 10 points; point t works on rows 5000 t .. 5000 t + 4999 of the node features and of the summed messages
  and writes the same rows of the output; weights and biases are read whole at every point.  A row of the node network
  depends only on the same row of the two per-node operands, so what point t writes back is block t of the node network
  of the whole arrays, and the 10 blocks tile the output.
-/
import proofs.«167818_j2774548873773_2_alg».proof.Proof.Gen.KernelIdeal.Frame
import proofs.«167818_j2774548873773_2_alg».proof.Proof.Tile
import Idealize.ShloMosaic.Lib.Pipeline.Value

set_option maxRecDepth 16384

noncomputable section

namespace Cert.KernelIdeal.NodeRegion

open Idealize.ShloMosaic Idealize.ShloMosaic.TcCoe Idealize.ShloMosaic.ValueIdx Idealize.SL.Sem
open Cert.KernelIdeal Cert.KernelIdeal.Gen Cert.Mp
open Idealize.ShloMosaic.Pipeline (Dat Cfg Window)

variable (V : (c : Dev nD) → (b : Ref sig .tc) → Buf (Elt Ideal) ((c : Thread nD τ).loc b)) (c : Dev nD)

/-- The printed index maps over the grid: the two per-node windows and the output move one block of rows per point,
    the weight and bias windows stay at block zero. -/
theorem points : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem point_lt (t : Fin cfg1.N) : t.val < 10 := lt_of_lt_of_eq t.isLt N_1

/-- The node network of the whole arrays as the region finds them. -/
def whole : S50000x128.Idx → EReal :=
  node (V c main_arg0 : S50000x128.Idx → EReal) (V c main_v43 : S50000x128.Idx → EReal)
    (V c main_v44 : S128x128.Idx → EReal) (V c main_v45 : S128x128.Idx → EReal)
    (shapeCast S1x128 (V c main_arg9 : S128.Idx → EReal) shapeCasts_S128_S1x128)
    (V c main_arg10 : S128x128.Idx → EReal) (shapeCast S1x128 (V c main_arg11 : S128.Idx → EReal) shapeCasts_S128_S1x128)

/-! ## The windows read whole -/

theorem block2 (t : Fin cfg1.N) : iblk1 V c 2 t = (V c main_v44 : S128x128.Idx → EReal) := by
  obtain ⟨-, -, -, -, e0, e1, -⟩ := points t
  funext y
  show (V c main_v44 : S128x128.Idx → EReal) (((cfg1.win 2).blk t).view.emb y) = V c main_v44 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem block3 (t : Fin cfg1.N) : iblk1 V c 3 t = (V c main_v45 : S128x128.Idx → EReal) := by
  obtain ⟨-, -, -, -, -, -, e0, e1, -⟩ := points t
  funext y
  show (V c main_v45 : S128x128.Idx → EReal) (((cfg1.win 3).blk t).view.emb y) = V c main_v45 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem block4 (t : Fin cfg1.N) : iblk1 V c 4 t = (V c main_arg9 : S128.Idx → EReal) := by
  obtain ⟨-, -, -, -, -, -, -, -, e0, -⟩ := points t
  funext y
  show (V c main_arg9 : S128.Idx → EReal) (((cfg1.win 4).blk t).view.emb y) = V c main_arg9 y
  refine congrArg _ (funext fun a => Fin.ext ?_)
  match a with
  | ⟨0, _⟩ => show win1_4.index t (0 : Fin 1) * 128 + 1 * (y 0).val = (y 0).val; omega

theorem block5 (t : Fin cfg1.N) : iblk1 V c 5 t = (V c main_arg10 : S128x128.Idx → EReal) := by
  obtain ⟨-, -, -, -, -, -, -, -, -, e0, e1, -⟩ := points t
  funext y
  show (V c main_arg10 : S128x128.Idx → EReal) (((cfg1.win 5).blk t).view.emb y) = V c main_arg10 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem block6 (t : Fin cfg1.N) : iblk1 V c 6 t = (V c main_arg11 : S128.Idx → EReal) := by
  obtain ⟨-, -, -, -, -, -, -, -, -, -, -, e0, -⟩ := points t
  funext y
  show (V c main_arg11 : S128.Idx → EReal) (((cfg1.win 6).blk t).view.emb y) = V c main_arg11 y
  refine congrArg _ (funext fun a => Fin.ext ?_)
  match a with
  | ⟨0, _⟩ => show win1_6.index t (0 : Fin 1) * 128 + 1 * (y 0).val = (y 0).val; omega

/-! ## The per-node windows: row p of block t is row 5000 t + p of the array -/

theorem rows0 (t : Fin cfg1.N) (p : Fin 5000) (r : Fin 50000) (hr : r.val = t.val * 5000 + p.val) (k : Fin 128) :
    iblk1 V c 0 t (ix2 p k) = (V c main_arg0 : S50000x128.Idx → EReal) (ix2 r k) := by
  obtain ⟨e0, e1, -⟩ := points t
  show (V c main_arg0 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem rows1 (t : Fin cfg1.N) (p : Fin 5000) (r : Fin 50000) (hr : r.val = t.val * 5000 + p.val) (k : Fin 128) :
    iblk1 V c 1 t (ix2 p k) = (V c main_v43 : S50000x128.Idx → EReal) (ix2 r k) := by
  obtain ⟨-, -, e0, e1, -⟩ := points t
  show (V c main_v43 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-! ## What a point writes back, the cover, the array -/

/-- What point t writes back is block t of the node network of the whole arrays. -/
theorem flushed (t : Fin cfg1.N) :
    (dat1 V c).flushed 7 t = ((cfg1.win 7).blk t).view.read (Elt Ideal) (whole V c) := by
  show (cfg1.win 7).cut (grid1.coords t) ((dat1 V c).after 7 t) = _
  rw [after1_7, Tile.node_block, block2, block3, block4, block5, block6]
  obtain ⟨-, -, -, -, -, -, -, -, -, -, -, -, e0, e1⟩ := points t
  have ht := point_lt t
  funext j
  obtain ⟨p, q, rfl⟩ : ∃ (p : Fin 5000) (q : Fin 128), j = ix2 p q := ⟨j 0, j 1, eq_ix2 j⟩
  have hr : t.val * 5000 + p.val < 50000 := by have := p.isLt; omega
  have he : ((cfg1.win 7).blk t).view.emb (ix2 p q) = ix2 (⟨t.val * 5000 + p.val, hr⟩ : Fin 50000) q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  show node (iblk1 V c 0 t) (iblk1 V c 1 t) _ _ _ _ _ (ix2 p q)
    = whole V c (((cfg1.win 7).blk t).view.emb (ix2 p q))
  rw [he]
  exact node_row _ _ _ _ _ _ _ _ _ p ⟨t.val * 5000 + p.val, hr⟩ q (rows0 V c t p _ rfl) (rows1 V c t p _ rfl)

/-- An index is in point t's block iff each coordinate is in the block's range on its axis. -/
theorem mem_block (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v46).slice (win1_7.rect t)).set ↔ _
  rw [View.set_slice_whole, Rect.mem_set_unit]
  exact Iff.rfl

/-- The output array after the grid is the node network of the whole arrays as the region found them. -/
theorem array : (dat1 V c).arrAt 7 cfg1.N = whole V c :=
  (dat1 V c).arrAt_eq_of_cover 7 (whole V c) (fun t _ => flushed V c t) fun i => by
    have hi0 : (i 0).val < 50000 := (i 0).isLt
    have hi1 : (i 1).val < 128 := (i 1).isLt
    have htN : (i 0).val / 5000 < cfg1.N := lt_of_lt_of_eq (by omega : (i 0).val / 5000 < 10) N_1.symm
    refine ⟨⟨(i 0).val / 5000, htN⟩, flush1_7 _, ?_⟩
    obtain ⟨-, -, -, -, -, -, -, -, -, -, -, -, e0, e1⟩ := points ⟨(i 0).val / 5000, htN⟩
    rw [mem_block]
    intro a
    match a with
    | ⟨0, _⟩ =>
      show win1_7.index ⟨(i 0).val / 5000, htN⟩ (0 : Fin 2) * 5000 ≤ (i 0).val
        ∧ (i 0).val < win1_7.index ⟨(i 0).val / 5000, htN⟩ (0 : Fin 2) * 5000 + 5000
      rw [e0]; show (i 0).val / 5000 * 5000 ≤ (i 0).val ∧ (i 0).val < (i 0).val / 5000 * 5000 + 5000; omega
    | ⟨1, _⟩ =>
      show win1_7.index ⟨(i 0).val / 5000, htN⟩ (1 : Fin 2) * 128 ≤ (i 1).val
        ∧ (i 1).val < win1_7.index ⟨(i 0).val / 5000, htN⟩ (1 : Fin 2) * 128 + 128
      rw [e1]; omega

end Cert.KernelIdeal.NodeRegion

end
-- ==== Proof.Stages.lean ====
/-
  One message-passing step as ONE function of the twelve argument arrays, at the extended reals.

  From the edge list E : [2, m] take the row of senders and the row of receivers.  Gather the features x and the
  coordinates of both end points of every edge (a negative index counts from the end; the gather clamps), form the
  squared length of the coordinate difference as a column, and put the edge attributes beside it.  The edge network
  (Layers) turns the gathered features and that [m, 9] array into one message per edge, its first weight matrix cut
  into the three row ranges that meet the three operands.  The messages are added into their sender's row of a zero
  array, and the node network maps a node's features and that sum to the result, its first weight matrix cut in two.
-/
import proofs.«167818_j2774548873773_2_alg».proof.KernelIdeal
import proofs.«167818_j2774548873773_2_alg».proof.Proof.Gen.KernelIdeal
import proofs.«167818_j2774548873773_2_alg».proof.Proof.Layers

noncomputable section

namespace Cert.Step

open Idealize.ShloMosaic Cert.KernelIdeal Cert.KernelIdeal.Gen Cert.Mp

abbrev I32 (s : Shape) := (⟨s, .i32⟩ : BufTy).Contents (Elt Ideal)
abbrev F32 (s : Shape) := (⟨s, .f32⟩ : BufTy).Contents (Elt Ideal)

/-- The senders: row 0 of the edge list, as a vector. -/
def senders (e : I32 S2x600000) : I32 S600000 :=
  shapeCast _ (extractStridedSlice S1x600000 ![0, 0] e slices_S2x600000_S1x600000_0_0) shapeCasts_S1x600000_S600000

/-- The receivers: row 1 of the edge list, as a vector. -/
def receivers (e : I32 S2x600000) : I32 S600000 :=
  shapeCast _ (extractStridedSlice S1x600000 ![1, 0] e slices_S2x600000_S1x600000_1_0) shapeCasts_S1x600000_S600000

/-- Node numbers as a gather's index column: a negative number has the node count added. -/
def wrapped (v : I32 S600000) : I32 S600000x1 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- The features of the nodes numbered `v`, one row per edge. -/
def featuresAt (x : F32 S50000x128) (v : I32 S600000) : F32 S600000x128 :=
  Host.gather gather_S50000x128_S600000x1_S600000x128_1_0_n_n_0_1_1128 x (wrapped v)

/-- The coordinates of the nodes numbered `v`, one row per edge. -/
def coordsAt (y : F32 S50000x3) (v : I32 S600000) : F32 S600000x3 :=
  Host.gather gather_S50000x3_S600000x1_S600000x3_1_0_n_n_0_1_13 y (wrapped v)

/-- The squared length of every edge, as a column. -/
def sqLength (y : F32 S50000x3) (e : I32 S2x600000) : F32 S600000x1 :=
  broadcastInDim S600000x1 ![0] bcast_S600000_S600000x1_0
    (Host.reduceAdd (F := Ideal)
      (mulf (subf (coordsAt y (senders e)) (coordsAt y (receivers e))) (subf (coordsAt y (senders e)) (coordsAt y (receivers e))))
      (constant (F := Ideal) S_ .f32 0x00000000#32) reducesTo_S600000x3_S600000_d1 h_S_)

/-- The squared length with the edge attributes beside it. -/
def lengthAttrs (y : F32 S50000x3) (e : I32 S2x600000) (ea : F32 S600000x8) : F32 S600000x9 :=
  concatenate S600000x9 1 [⟨S600000x1, sqLength y e⟩, ⟨S600000x8, ea⟩] concatenates_S600000x1_S600000x8_S600000x9_d1

/-- A vector as one row. -/
def rowOf (b : F32 S128) : F32 S1x128 := shapeCast S1x128 b shapeCasts_S128_S1x128

/-- The edge network's first weight matrix, its rows 0-127, 128-255 and 256-264. -/
def edgeW1 (w : F32 S265x128) : F32 S128x128 := extractStridedSlice S128x128 ![0, 0] w slices_S265x128_S128x128_0_0
def edgeW2 (w : F32 S265x128) : F32 S128x128 := extractStridedSlice S128x128 ![128, 0] w slices_S265x128_S128x128_128_0
def edgeW3 (w : F32 S265x128) : F32 S9x128 := extractStridedSlice S9x128 ![256, 0] w slices_S265x128_S9x128_256_0

/-- The node network's first weight matrix, its rows 0-127 and 128-255. -/
def nodeW1 (w : F32 S256x128) : F32 S128x128 := extractStridedSlice S128x128 ![0, 0] w slices_S256x128_S128x128_0_0
def nodeW2 (w : F32 S256x128) : F32 S128x128 := extractStridedSlice S128x128 ![128, 0] w slices_S256x128_S128x128_128_0

/-- One message per edge. -/
def messages (x : F32 S50000x128) (y : F32 S50000x3) (e : I32 S2x600000) (ea : F32 S600000x8) (we1 : F32 S265x128)
    (be1 : F32 S128) (we2 : F32 S128x128) (be2 : F32 S128) : F32 S600000x128 :=
  edge (featuresAt x (senders e)) (featuresAt x (receivers e)) (lengthAttrs y e ea) (edgeW1 we1) (edgeW2 we1) (edgeW3 we1)
    (rowOf be1) we2 (rowOf be2)

/-- Every message added into its sender's row of a zero array. -/
def summed (e : I32 S2x600000) (msg : F32 S600000x128) : F32 S50000x128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (senders e)) msg

/-- The step's result. -/
def result (x : F32 S50000x128) (y : F32 S50000x3) (e : I32 S2x600000) (ea : F32 S600000x8) (we1 : F32 S265x128)
    (be1 : F32 S128) (we2 : F32 S128x128) (be2 : F32 S128) (wn1 : F32 S256x128) (bn1 : F32 S128) (wn2 : F32 S128x128)
    (bn2 : F32 S128) : F32 S50000x128 :=
  node x (summed e (messages x y e ea we1 be1 we2 be2)) (nodeW1 wn1) (nodeW2 wn1) (rowOf bn1) wn2 (rowOf bn2)

end Cert.Step

end
-- ==== Proof.KernelValue.lean ====
/-
  The idealized kernel's result as the step's one function of the twelve arguments.

  At the edge region's entry the host operations before it have written: the gathered features of both end points,
  the squared length beside the edge attributes, and the three cuts of the first weight matrix; the biases and the
  second weight matrix are arguments.  So the edge region's output is the messages.  The host operations between the
  regions add the messages into their senders' rows and cut the node network's first weight matrix; the node region's
  output, which is the program's result, is the node network of the node features and that sum.
-/
import proofs.«167818_j2774548873773_2_alg».proof.Proof.KernelRun
import proofs.«167818_j2774548873773_2_alg».proof.Proof.EdgeRegion
import proofs.«167818_j2774548873773_2_alg».proof.Proof.NodeRegion
import proofs.«167818_j2774548873773_2_alg».proof.Proof.Stages
import Idealize.ShloMosaic.Lib.StableHlo.Run

set_option maxRecDepth 16384

noncomputable section

namespace Cert.KernelIdeal.ResultValue

open Idealize.ShloMosaic Idealize.ShloMosaic.TcCoe Idealize.ShloMosaic.StableHlo Idealize.SL.Sem
open Cert.KernelIdeal Cert.KernelIdeal.Gen Cert.Mp Cert.Step

variable (m : (ℓ : Loc nD τ sig) → Buf (Elt Ideal) ℓ) (ρ : Dev nD → PrngReg) (c : Dev nD)

/-! ## The arrays at the edge region's entry -/

theorem entry0_v1 : (V1 m ρ c main_v1 : S600000.Idx → BitVec 32) = senders (m ((c : Thread nD τ).loc main_arg2)) := by
  show StableHlo.after hostOps0 (W0 m ρ c) (Proc.devRef .tc main_v1) = _
  after_results_simp <;> rfl

theorem entry0_v10 : (V1 m ρ c main_v10 : S600000x128.Idx → EReal)
    = featuresAt (m ((c : Thread nD τ).loc main_arg0)) (senders (m ((c : Thread nD τ).loc main_arg2))) := by
  show StableHlo.after hostOps0 (W0 m ρ c) (Proc.devRef .tc main_v10) = _
  after_results_simp <;> rfl

theorem entry0_v17 : (V1 m ρ c main_v17 : S600000x128.Idx → EReal)
    = featuresAt (m ((c : Thread nD τ).loc main_arg0)) (receivers (m ((c : Thread nD τ).loc main_arg2))) := by
  show StableHlo.after hostOps0 (W0 m ρ c) (Proc.devRef .tc main_v17) = _
  after_results_simp <;> rfl

/-- Two arrays side by side: equal pieces give equal joins. -/
theorem join_congr {X X' : S600000x1.Idx → EReal} {Y Y' : S600000x8.Idx → EReal} (hX : X = X') (hY : Y = Y')
    (h : Shape.Concatenates [S600000x1, S600000x8] S600000x9 1) :
    concatenate S600000x9 1 [⟨S600000x1, X⟩, ⟨S600000x8, Y⟩] h = concatenate S600000x9 1 [⟨S600000x1, X'⟩, ⟨S600000x8, Y'⟩] h := by
  subst hX; subst hY; rfl

theorem entry0_v36 : (V1 m ρ c main_v36 : S600000x9.Idx → EReal)
    = lengthAttrs (m ((c : Thread nD τ).loc main_arg1)) (m ((c : Thread nD τ).loc main_arg2)) (m ((c : Thread nD τ).loc main_arg3)) := by
  show StableHlo.after hostOps0 (W0 m ρ c) (Proc.devRef .tc main_v36) = _
  after_results_simp
  unfold lengthAttrs
  refine join_congr ?_ ?_ _
  · after_results_simp <;> rfl
  · after_results_simp <;> rfl

theorem entry0_v37 : (V1 m ρ c main_v37 : S128x128.Idx → EReal) = edgeW1 (m ((c : Thread nD τ).loc main_arg4)) := by
  show StableHlo.after hostOps0 (W0 m ρ c) (Proc.devRef .tc main_v37) = _
  after_results_simp <;> rfl

theorem entry0_v38 : (V1 m ρ c main_v38 : S128x128.Idx → EReal) = edgeW2 (m ((c : Thread nD τ).loc main_arg4)) := by
  show StableHlo.after hostOps0 (W0 m ρ c) (Proc.devRef .tc main_v38) = _
  after_results_simp <;> rfl

theorem entry0_v39 : (V1 m ρ c main_v39 : S9x128.Idx → EReal) = edgeW3 (m ((c : Thread nD τ).loc main_arg4)) := by
  show StableHlo.after hostOps0 (W0 m ρ c) (Proc.devRef .tc main_v39) = _
  after_results_simp <;> rfl

theorem entry0_arg5 : (V1 m ρ c main_arg5 : S128.Idx → EReal) = m ((c : Thread nD τ).loc main_arg5) := by
  show StableHlo.after hostOps0 (W0 m ρ c) (Proc.devRef .tc main_arg5) = _
  after_results_simp <;> rfl

theorem entry0_arg6 : (V1 m ρ c main_arg6 : S128x128.Idx → EReal) = m ((c : Thread nD τ).loc main_arg6) := by
  show StableHlo.after hostOps0 (W0 m ρ c) (Proc.devRef .tc main_arg6) = _
  after_results_simp <;> rfl

theorem entry0_arg7 : (V1 m ρ c main_arg7 : S128.Idx → EReal) = m ((c : Thread nD τ).loc main_arg7) := by
  show StableHlo.after hostOps0 (W0 m ρ c) (Proc.devRef .tc main_arg7) = _
  after_results_simp <;> rfl

theorem entry0_arg8 : (V1 m ρ c main_arg8 : S256x128.Idx → EReal) = m ((c : Thread nD τ).loc main_arg8) := by
  show StableHlo.after hostOps0 (W0 m ρ c) (Proc.devRef .tc main_arg8) = _
  after_results_simp <;> rfl

/-- The edge region's output array after its grid: the messages. -/
theorem edge_output : (dat0 (V1 m ρ) c).arrAt 9 cfg0.N
    = messages (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [EdgeRegion.array]
  unfold EdgeRegion.whole messages rowOf
  rw [entry0_v10, entry0_v17, entry0_v36, entry0_v37, entry0_v38, entry0_v39, entry0_arg5, entry0_arg6, entry0_arg7]

/-! ## The arrays at the node region's entry -/

/-- An input window's array of the node region, at the region's entry, is what the last boundary holds there. -/
theorem entry1_of_exit (w : Fin cfg1.W) (hin : (cfg1.win w).isOut = false) :
    V3 m ρ c (Pipeline.arrRef spec1 w) = W4 m ρ c (Proc.devRef .tc (Pipeline.arrRef spec1 w)) :=
  ((W4_arr m ρ c w).trans (((dat1 (V3 m ρ) c).arrAt_in w hin _).trans (A_eq1 (V3 m ρ) c w))).symm

theorem entry1_arg0 : (V3 m ρ c main_arg0 : S50000x128.Idx → EReal) = m ((c : Thread nD τ).loc main_arg0) :=
  (entry1_of_exit m ρ c 0 rfl).trans (W4_main_arg0 m ρ c)

theorem entry1_arg9 : (V3 m ρ c main_arg9 : S128.Idx → EReal) = m ((c : Thread nD τ).loc main_arg9) :=
  (entry1_of_exit m ρ c 4 rfl).trans (W4_main_arg9 m ρ c)

theorem entry1_arg10 : (V3 m ρ c main_arg10 : S128x128.Idx → EReal) = m ((c : Thread nD τ).loc main_arg10) :=
  (entry1_of_exit m ρ c 5 rfl).trans (W4_main_arg10 m ρ c)

theorem entry1_arg11 : (V3 m ρ c main_arg11 : S128.Idx → EReal) = m ((c : Thread nD τ).loc main_arg11) :=
  (entry1_of_exit m ρ c 6 rfl).trans (W4_main_arg11 m ρ c)

theorem exit0_arg8 : W2 m ρ c (Proc.devRef .tc main_arg8) = m ((c : Thread nD τ).loc main_arg8) :=
  (W2_of_ne m ρ c main_arg8 (by decide)).trans (entry0_arg8 m ρ c)

theorem exit0_v1 : (W2 m ρ c (Proc.devRef .tc main_v1) : S600000.Idx → BitVec 32) = senders (m ((c : Thread nD τ).loc main_arg2)) :=
  (W2_of_ne m ρ c main_v1 (by decide)).trans (entry0_v1 m ρ c)

theorem exit0_v40 : W2 m ρ c (Proc.devRef .tc main_v40) = (dat0 (V1 m ρ) c).arrAt 9 cfg0.N := W2_arr m ρ c 9

theorem entry1_v44 : (V3 m ρ c main_v44 : S128x128.Idx → EReal) = nodeW1 (m ((c : Thread nD τ).loc main_arg8)) := by
  show StableHlo.after hostOps1 (W2 m ρ c) (Proc.devRef .tc main_v44) = _
  after_results
  rw [exit0_arg8]
  rfl

theorem entry1_v45 : (V3 m ρ c main_v45 : S128x128.Idx → EReal) = nodeW2 (m ((c : Thread nD τ).loc main_arg8)) := by
  show StableHlo.after hostOps1 (W2 m ρ c) (Proc.devRef .tc main_v45) = _
  after_results
  rw [exit0_arg8]
  rfl

theorem entry1_v43 : (V3 m ρ c main_v43 : S50000x128.Idx → EReal)
    = summed (m ((c : Thread nD τ).loc main_arg2))
        (messages (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))) := by
  show StableHlo.after hostOps1 (W2 m ρ c) (Proc.devRef .tc main_v43) = _
  after_results
  rw [exit0_v1, exit0_v40, edge_output]
  rfl

/-- The program's result buffer at the last boundary is the step's result of the arguments as launched. -/
theorem result_value : W4 m ρ c (Proc.devRef .tc main_v46)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [RunValue.result_at_exit, NodeRegion.array]
  unfold NodeRegion.whole result rowOf
  rw [entry1_arg0, entry1_v43, entry1_v44, entry1_v45, entry1_arg9, entry1_arg10, entry1_arg11]

end Cert.KernelIdeal.ResultValue

end
-- ==== Proof.RefBridge.lean ====
/-
  The reference program computes the step's one function of the twelve argument arrays.

  The reference joins, for every edge, the features of its two end points, its squared length and its attributes into
  one row of 265 numbers and multiplies by the whole first weight matrix; the step (Stages) multiplies the three
  operands by the three row ranges 0-127, 128-255, 256-264 of that matrix and adds the products.  The two agree
  because a sum over 265 consecutive positions is the sum over the first 128, plus the sum over the next 128, plus
  the sum over the last 9, and because row c of the joined array is, in each range, the matching operand's entry
  while row c of a row range of the matrix is row (offset + c) of the matrix.  The node network is the same with
  256 = 128 + 128.  Everything else is the same operations on the same operands: the gathers, the squared length,
  the sum of the messages per sender, the bias rows and the rectifiers.  Only commutative-monoid facts of the extended
  reals are used: no distributivity, no finiteness.
-/
import proofs.«167818_j2774548873773_2_alg».proof.Proof.Gen.ReferenceIdeal.Read
import proofs.«167818_j2774548873773_2_alg».proof.Proof.Stages
import proofs.«167818_j2774548873773_2_alg».proof.Proof.Spellings
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.Step.Ref

open Idealize.ShloMosaic Idealize.ShloMosaic.ValueIdx Cert.Dense Cert.Mp Cert.Step Cert.KernelIdeal
open Cert.ReferenceIdeal.Read

/-! ## A sum over consecutive ranges -/

/-- A sum over a + b consecutive positions is the sum over the first a plus the sum over the next b. -/
theorem sum_two {M : Type} [AddCommMonoid M] (a b n : ℕ) (h : a + b = n) (f : Fin n → M) :
    ∑ i : Fin n, f i
      = ∑ i : Fin a, f ⟨i.val, by have := i.isLt; omega⟩ + ∑ i : Fin b, f ⟨a + i.val, by have := i.isLt; omega⟩ := by
  subst h
  rw [Fin.sum_univ_add]
  rfl

/-- A sum over a + b + c consecutive positions is the sum over the first a, plus the sum over the next b, plus the sum
    over the last c. -/
theorem sum_three {M : Type} [AddCommMonoid M] (a b c n : ℕ) (h : a + b + c = n) (f : Fin n → M) :
    ∑ i : Fin n, f i
      = (∑ i : Fin a, f ⟨i.val, by have := i.isLt; omega⟩ + ∑ i : Fin b, f ⟨a + i.val, by have := i.isLt; omega⟩)
          + ∑ i : Fin c, f ⟨a + b + i.val, by have := i.isLt; omega⟩ := by
  subst h
  rw [Fin.sum_univ_add, Fin.sum_univ_add]
  rfl

/-! ## The joined arrays, read at a column -/

section Joins

variable (A B : F32 S600000x128) (R : F32 S600000x1) (EA : F32 S600000x8)
  (h4 : Shape.Concatenates [S600000x128, S600000x128, S600000x1, S600000x8] (⟨2, ![600000, 265]⟩ : Shape) 1)
  (h2 : Shape.Concatenates [S600000x1, S600000x8] S600000x9 1)

/-- The four per-edge arrays side by side: 128 + 128 + 1 + 8 columns. -/
abbrev four : List ((s : Shape) × (s.Idx → EReal)) :=
  [⟨S600000x128, A⟩, ⟨S600000x128, B⟩, ⟨S600000x1, R⟩, ⟨S600000x8, EA⟩]

/-- Columns 0-127 of the four arrays side by side are the first array. -/
theorem join4_first (r : Fin 600000) (c : Fin 128) (hc : c.val < 265) :
    concatenate (⟨2, ![600000, 265]⟩ : Shape) 1 (four A B R EA) h4 (ix2 r (⟨c.val, hc⟩ : Fin 265)) = A (ix2 r c) :=
  concatenate_apply_piece 1 (four A B R EA) h4 (ix2 r (⟨c.val, hc⟩ : Fin 265)) 0 (by decide : (0 : ℕ) < 4) S600000x128 A rfl rfl 0 rfl
    (ix2 r c)
    (fun b hb => by
      match b with
      | ⟨0, _⟩ => rfl
      | ⟨1, _⟩ => exact absurd rfl hb)
    (by show 0 + c.val = c.val; omega)

/-- Columns 128-255 are the second array. -/
theorem join4_second (r : Fin 600000) (c : Fin 128) (hc : 128 + c.val < 265) :
    concatenate (⟨2, ![600000, 265]⟩ : Shape) 1 (four A B R EA) h4 (ix2 r (⟨128 + c.val, hc⟩ : Fin 265)) = B (ix2 r c) :=
  concatenate_apply_piece 1 (four A B R EA) h4 (ix2 r (⟨128 + c.val, hc⟩ : Fin 265)) 1 (by decide : (1 : ℕ) < 4) S600000x128 B rfl rfl 128
    rfl (ix2 r c)
    (fun b hb => by
      match b with
      | ⟨0, _⟩ => rfl
      | ⟨1, _⟩ => exact absurd rfl hb)
    (by show 128 + c.val = 128 + c.val; rfl)

/-- Columns 256-264 are the last two arrays side by side: column 256 is the one column of the third array, columns
    257-264 are the fourth array. -/
theorem join4_third (r : Fin 600000) (c : Fin 9) (hc : 128 + 128 + c.val < 265) :
    concatenate (⟨2, ![600000, 265]⟩ : Shape) 1 (four A B R EA) h4 (ix2 r (⟨128 + 128 + c.val, hc⟩ : Fin 265))
      = concatenate S600000x9 1 [⟨S600000x1, R⟩, ⟨S600000x8, EA⟩] h2 (ix2 r c) := by
  by_cases h0 : c.val < 1
  · refine (concatenate_apply_piece 1 (four A B R EA) h4 (ix2 r (⟨128 + 128 + c.val, hc⟩ : Fin 265)) 2 (by decide : (2 : ℕ) < 4)
      S600000x1 R rfl rfl 256 rfl (ix2 r (⟨c.val, h0⟩ : Fin 1))
      (fun b hb => by
        match b with
        | ⟨0, _⟩ => rfl
        | ⟨1, _⟩ => exact absurd rfl hb)
      (by show 256 + c.val = 128 + 128 + c.val; omega)).trans ?_
    exact (concatenate_pair_apply_left 1 R EA h2 (ix2 r c) rfl (ix2 r (⟨c.val, h0⟩ : Fin 1)) (fun b => by
      match b with
      | ⟨0, _⟩ => rfl
      | ⟨1, _⟩ => rfl)).symm
  · have h1 : c.val - 1 < 8 := by have := c.isLt; omega
    refine (concatenate_apply_piece 1 (four A B R EA) h4 (ix2 r (⟨128 + 128 + c.val, hc⟩ : Fin 265)) 3 (by decide : (3 : ℕ) < 4)
      S600000x8 EA rfl rfl 257 rfl (ix2 r (⟨c.val - 1, h1⟩ : Fin 8))
      (fun b hb => by
        match b with
        | ⟨0, _⟩ => rfl
        | ⟨1, _⟩ => exact absurd rfl hb)
      (by show 257 + (c.val - 1) = 128 + 128 + c.val; omega)).trans ?_
    exact (concatenate_pair_apply_right 1 R EA h2 (ix2 r c) rfl rfl (ix2 r (⟨c.val - 1, h1⟩ : Fin 8))
      (fun b hb => by
        match b with
        | ⟨0, _⟩ => rfl
        | ⟨1, _⟩ => exact absurd rfl hb)
      (by show (c.val - 1) + 1 = c.val; omega)).symm

end Joins

section Pair

variable (X Y : F32 S50000x128)
  (h : Shape.Concatenates [S50000x128, S50000x128] (⟨2, ![50000, 256]⟩ : Shape) 1)

/-- Columns 0-127 of two per-node arrays side by side are the first array. -/
theorem join2_first (r : Fin 50000) (c : Fin 128) (hc : c.val < 256) :
    concatenate (⟨2, ![50000, 256]⟩ : Shape) 1 [⟨S50000x128, X⟩, ⟨S50000x128, Y⟩] h (ix2 r (⟨c.val, hc⟩ : Fin 256))
      = X (ix2 r c) :=
  concatenate_pair_apply_left 1 X Y h (ix2 r (⟨c.val, hc⟩ : Fin 256)) rfl (ix2 r c) (fun b => by
    match b with
    | ⟨0, _⟩ => rfl
    | ⟨1, _⟩ => rfl)

/-- Columns 128-255 are the second array. -/
theorem join2_second (r : Fin 50000) (c : Fin 128) (hc : 128 + c.val < 256) :
    concatenate (⟨2, ![50000, 256]⟩ : Shape) 1 [⟨S50000x128, X⟩, ⟨S50000x128, Y⟩] h (ix2 r (⟨128 + c.val, hc⟩ : Fin 256))
      = Y (ix2 r c) :=
  concatenate_pair_apply_right 1 X Y h (ix2 r (⟨128 + c.val, hc⟩ : Fin 256)) rfl rfl (ix2 r c)
    (fun b hb => by
      match b with
      | ⟨0, _⟩ => rfl
      | ⟨1, _⟩ => exact absurd rfl hb)
    (by show c.val + 128 = 128 + c.val; omega)

end Pair

/-! ## Row ranges of the weight matrices, read at an entry -/

/-- Row c of rows 0-127 of the edge network's first matrix is its row c. -/
theorem edgeW1_apply (W : F32 S265x128) (c : Fin 128) (q : Fin 128) :
    edgeW1 W (ix2 c q) = W (ix2 (⟨c.val, by have := c.isLt; omega⟩ : Fin 265) q) := by
  unfold edgeW1
  exact extractStridedSlice_apply ![0, 0] W _ (ix2 c q) (ix2 (⟨c.val, by have := c.isLt; omega⟩ : Fin 265) q) (fun a =>
    match a with
    | ⟨0, _⟩ => by show c.val = 0 + c.val; omega
    | ⟨1, _⟩ => by show q.val = 0 + q.val; omega)

/-- Row c of rows 128-255 is its row 128 + c. -/
theorem edgeW2_apply (W : F32 S265x128) (c : Fin 128) (q : Fin 128) :
    edgeW2 W (ix2 c q) = W (ix2 (⟨128 + c.val, by have := c.isLt; omega⟩ : Fin 265) q) := by
  unfold edgeW2
  exact extractStridedSlice_apply ![128, 0] W _ (ix2 c q) (ix2 (⟨128 + c.val, by have := c.isLt; omega⟩ : Fin 265) q)
    (fun a =>
      match a with
      | ⟨0, _⟩ => by show 128 + c.val = 128 + c.val; rfl
      | ⟨1, _⟩ => by show q.val = 0 + q.val; omega)

/-- Row c of rows 256-264 is its row 128 + 128 + c. -/
theorem edgeW3_apply (W : F32 S265x128) (c : Fin 9) (q : Fin 128) :
    edgeW3 W (ix2 c q) = W (ix2 (⟨128 + 128 + c.val, by have := c.isLt; omega⟩ : Fin 265) q) := by
  unfold edgeW3
  exact extractStridedSlice_apply ![256, 0] W _ (ix2 c q)
    (ix2 (⟨128 + 128 + c.val, by have := c.isLt; omega⟩ : Fin 265) q) (fun a =>
      match a with
      | ⟨0, _⟩ => by show 128 + 128 + c.val = 256 + c.val; omega
      | ⟨1, _⟩ => by show q.val = 0 + q.val; omega)

/-- Row c of rows 0-127 of the node network's first matrix is its row c. -/
theorem nodeW1_apply (W : F32 S256x128) (c : Fin 128) (q : Fin 128) :
    nodeW1 W (ix2 c q) = W (ix2 (⟨c.val, by have := c.isLt; omega⟩ : Fin 256) q) := by
  unfold nodeW1
  exact extractStridedSlice_apply ![0, 0] W _ (ix2 c q) (ix2 (⟨c.val, by have := c.isLt; omega⟩ : Fin 256) q) (fun a =>
    match a with
    | ⟨0, _⟩ => by show c.val = 0 + c.val; omega
    | ⟨1, _⟩ => by show q.val = 0 + q.val; omega)

/-- Row c of rows 128-255 is its row 128 + c. -/
theorem nodeW2_apply (W : F32 S256x128) (c : Fin 128) (q : Fin 128) :
    nodeW2 W (ix2 c q) = W (ix2 (⟨128 + c.val, by have := c.isLt; omega⟩ : Fin 256) q) := by
  unfold nodeW2
  exact extractStridedSlice_apply ![128, 0] W _ (ix2 c q) (ix2 (⟨128 + c.val, by have := c.isLt; omega⟩ : Fin 256) q)
    (fun a =>
      match a with
      | ⟨0, _⟩ => by show 128 + c.val = 128 + c.val; rfl
      | ⟨1, _⟩ => by show q.val = 0 + q.val; omega)

/-! ## The product with a joined array is the sum of the products with the pieces -/

/-- Four per-edge arrays side by side times the whole matrix: the first times rows 0-127, plus the second times rows
    128-255, plus the last two side by side times rows 256-264.  The sum over the 265 columns is cut into its three
    consecutive ranges; nothing is reordered. -/
theorem prod_join4 (A B : F32 S600000x128) (R : F32 S600000x1) (EA : F32 S600000x8)
    (h4 : Shape.Concatenates [S600000x128, S600000x128, S600000x1, S600000x8] (⟨2, ![600000, 265]⟩ : Shape) 1)
    (h2 : Shape.Concatenates [S600000x1, S600000x8] S600000x9 1) (W : F32 S265x128) (r : Fin 600000) (q : Fin 128) :
    prod (concatenate (⟨2, ![600000, 265]⟩ : Shape) 1 (four A B R EA) h4) W (ix2 r q)
      = (prod A (edgeW1 W) (ix2 r q) + prod B (edgeW2 W) (ix2 r q))
          + prod (concatenate S600000x9 1 [⟨S600000x1, R⟩, ⟨S600000x8, EA⟩] h2) (edgeW3 W) (ix2 r q) := by
  rw [prod_ix2, prod_ix2, prod_ix2, prod_ix2]
  refine (sum_three 128 128 9 265 rfl (fun c : Fin 265 =>
    concatenate (⟨2, ![600000, 265]⟩ : Shape) 1 (four A B R EA) h4 (ix2 r c) * W (ix2 c q))).trans ?_
  refine congrArg₂ (fun s t : EReal => s + t) (congrArg₂ (fun s t : EReal => s + t) ?_ ?_) ?_
  · exact Finset.sum_congr rfl fun c _ =>
      congrArg₂ (fun s t : EReal => s * t) (join4_first A B R EA h4 r c _) (edgeW1_apply W c q).symm
  · exact Finset.sum_congr rfl fun c _ =>
      congrArg₂ (fun s t : EReal => s * t) (join4_second A B R EA h4 r c _) (edgeW2_apply W c q).symm
  · exact Finset.sum_congr rfl fun c _ =>
      congrArg₂ (fun s t : EReal => s * t) (join4_third A B R EA h4 h2 r c _) (edgeW3_apply W c q).symm

/-- Two per-node arrays side by side times the whole matrix: the first times rows 0-127 plus the second times rows
    128-255. -/
theorem prod_join2 (X Y : F32 S50000x128)
    (h : Shape.Concatenates [S50000x128, S50000x128] (⟨2, ![50000, 256]⟩ : Shape) 1) (W : F32 S256x128)
    (r : Fin 50000) (q : Fin 128) :
    prod (concatenate (⟨2, ![50000, 256]⟩ : Shape) 1 [⟨S50000x128, X⟩, ⟨S50000x128, Y⟩] h) W (ix2 r q)
      = prod X (nodeW1 W) (ix2 r q) + prod Y (nodeW2 W) (ix2 r q) := by
  rw [prod_ix2, prod_ix2, prod_ix2]
  refine (sum_two 128 128 256 rfl (fun c : Fin 256 =>
    concatenate (⟨2, ![50000, 256]⟩ : Shape) 1 [⟨S50000x128, X⟩, ⟨S50000x128, Y⟩] h (ix2 r c) * W (ix2 c q))).trans ?_
  refine congrArg₂ (fun s t : EReal => s + t) ?_ ?_
  · exact Finset.sum_congr rfl fun c _ =>
      congrArg₂ (fun s t : EReal => s * t) (join2_first X Y h r c _) (nodeW1_apply W c q).symm
  · exact Finset.sum_congr rfl fun c _ =>
      congrArg₂ (fun s t : EReal => s * t) (join2_second X Y h r c _) (nodeW2_apply W c q).symm

/-! ## The two programs' records of one operation are one record -/

theorem gatherF_eq : Cert.ReferenceIdeal.gather_S50000x128_S600000x1_S600000x128_1_0_n_n_0_1_1128
    = Cert.KernelIdeal.gather_S50000x128_S600000x1_S600000x128_1_0_n_n_0_1_1128 := rfl

theorem gatherC_eq : Cert.ReferenceIdeal.gather_S50000x3_S600000x1_S600000x3_1_0_n_n_0_1_13
    = Cert.KernelIdeal.gather_S50000x3_S600000x1_S600000x3_1_0_n_n_0_1_13 := rfl

theorem scatter_eq : Cert.ReferenceIdeal.scatter_S50000x128_S600000x1_S600000x128_1_0_0_1
    = Cert.KernelIdeal.scatter_S50000x128_S600000x1_S600000x128_1_0_0_1 := rfl

/-- The four products of the reference are plain products [a, k] x [k, n]. -/
theorem plain_e1 : PlainDims Cert.ReferenceIdeal.dot_S600000x265_S265x128_S600000x128_1_0_0_1_n_n := ⟨rfl, rfl, rfl, rfl, rfl, rfl⟩
theorem plain_e2 : PlainDims Cert.ReferenceIdeal.dot_S600000x128_S128x128_S600000x128_1_0_0_1_n_n := ⟨rfl, rfl, rfl, rfl, rfl, rfl⟩
theorem plain_n1 : PlainDims Cert.ReferenceIdeal.dot_S50000x256_S256x128_S50000x128_1_0_0_1_n_n := ⟨rfl, rfl, rfl, rfl, rfl, rfl⟩
theorem plain_n2 : PlainDims Cert.ReferenceIdeal.dot_S50000x128_S128x128_S50000x128_1_0_0_1_n_n := ⟨rfl, rfl, rfl, rfl, rfl, rfl⟩

/-! ## The stages before the networks: the same operations on the same operands -/

/-- Row 0 of the edge list. -/
theorem v1_eq (x2 : I32 S2x600000) : val_main_v1 (F := Ideal) x2 = senders x2 := rfl

/-- Row 1 of the edge list. -/
theorem v3_eq (x2 : I32 S2x600000) : val_main_v3 (F := Ideal) x2 = receivers x2 := rfl

/-- The senders as a gather's index column (used twice by the reference, for the coordinates and for the features). -/
theorem v9_eq (x2 : I32 S2x600000) : val_main_v9 (F := Ideal) x2 = wrapped (senders x2) := rfl
theorem v27_eq (x2 : I32 S2x600000) : val_main_v27 (F := Ideal) x2 = wrapped (senders x2) := rfl

/-- The receivers as a gather's index column. -/
theorem v16_eq (x2 : I32 S2x600000) : val_main_v16 (F := Ideal) x2 = wrapped (receivers x2) := rfl
theorem v34_eq (x2 : I32 S2x600000) : val_main_v34 (F := Ideal) x2 = wrapped (receivers x2) := rfl

/-- The coordinates of an edge's two end points. -/
theorem v10_eq (x1 : F32 S50000x3) (x2 : I32 S2x600000) : val_main_v10 (F := Ideal) x1 x2 = coordsAt x1 (senders x2) := by
  unfold val_main_v10 coordsAt
  rw [v9_eq, gatherC_eq]

theorem v17_eq (x1 : F32 S50000x3) (x2 : I32 S2x600000) : val_main_v17 (F := Ideal) x1 x2 = coordsAt x1 (receivers x2) := by
  unfold val_main_v17 coordsAt
  rw [v16_eq, gatherC_eq]

/-- The features of an edge's two end points. -/
theorem v28_eq (x0 : F32 S50000x128) (x2 : I32 S2x600000) : val_main_v28 (F := Ideal) x0 x2 = featuresAt x0 (senders x2) := by
  unfold val_main_v28 featuresAt
  rw [v27_eq, gatherF_eq]

theorem v35_eq (x0 : F32 S50000x128) (x2 : I32 S2x600000) : val_main_v35 (F := Ideal) x0 x2 = featuresAt x0 (receivers x2) := by
  unfold val_main_v35 featuresAt
  rw [v34_eq, gatherF_eq]

/-- The squared length of every edge, as a column. -/
theorem v21_eq (x1 : F32 S50000x3) (x2 : I32 S2x600000) : val_main_v21 (F := Ideal) x1 x2 = sqLength x1 x2 := by
  unfold val_main_v21 val_main_v20 val_main_v19 val_main_v18 val_main_cst sqLength
  rw [v10_eq, v17_eq]

/-- The messages added into their sender's row of a zero array. -/
theorem v49_eq (x0 : F32 S50000x128) (x1 : F32 S50000x3) (x2 : I32 S2x600000) (x3 : F32 S600000x8) (x4 : F32 S265x128) (x5 : F32 S128) (x6 : F32 S128x128) (x7 : F32 S128) :
    val_main_v49 (F := Ideal) x0 x1 x2 x3 x4 x5 x6 x7 = summed x2 (val_main_v46 (F := Ideal) x0 x1 x2 x3 x4 x5 x6 x7) := by
  unfold val_main_v49 val_main_v47 val_main_cst_7 val_main_v48 summed
  rw [v1_eq, scatter_eq]

/-! ## A layer as the host spells it -/

/-- A dot_general plus a bias vector laid out as one row and then over the rows is the biased product with that row. -/
theorem host_layer {a k n : ℕ} (d : DotDims ⟨2, ![a, k]⟩ ⟨2, ![k, n]⟩ ⟨2, ![a, n]⟩) (hd : PlainDims d)
    (h : FVec Ideal ⟨2, ![a, k]⟩ .f32) (W : FVec Ideal ⟨2, ![k, n]⟩ .f32) (b : FVec Ideal ⟨1, ![n]⟩ .f32)
    (hc : (⟨1, ![n]⟩ : Shape).ShapeCasts ⟨2, ![1, n]⟩)
    (hb1 : (⟨1, ![n]⟩ : Shape).BroadcastsInDim ⟨2, ![1, n]⟩ ![1])
    (hb2 : (⟨2, ![1, n]⟩ : Shape).BroadcastsInDim ⟨2, ![a, n]⟩ ![0, 1]) :
    addf (Host.dotGeneral (F := Ideal) d none h W)
        (broadcastInDim ⟨2, ![a, n]⟩ ![0, 1] hb2 (broadcastInDim ⟨2, ![1, n]⟩ ![1] hb1 b))
      = biased h W (shapeCast ⟨2, ![1, n]⟩ b hc) := by
  rw [host_prod d hd, ← row_cast_eq_bcast b hc hb1, host_bias]
  rfl

/-- The edge network's first layer before its rectifier. -/
theorem v40_eq (x0 : F32 S50000x128) (x1 : F32 S50000x3) (x2 : I32 S2x600000) (x3 : F32 S600000x8) (x4 : F32 S265x128) (x5 : F32 S128) :
    val_main_v40 (F := Ideal) x0 x1 x2 x3 x4 x5 = biased (val_main_v36 (F := Ideal) x0 x1 x2 x3) x4 (rowOf x5) := by
  unfold val_main_v40 val_main_v39 val_main_v38 val_main_v37
  exact host_layer (a := 600000) (k := 265) (n := 128) _ plain_e1 _ x4 x5 _ _ _

theorem v41_eq (x0 : F32 S50000x128) (x1 : F32 S50000x3) (x2 : I32 S2x600000) (x3 : F32 S600000x8) (x4 : F32 S265x128) (x5 : F32 S128) :
    val_main_v41 (F := Ideal) x0 x1 x2 x3 x4 x5
      = relu (biased (val_main_v36 (F := Ideal) x0 x1 x2 x3) x4 (rowOf x5)) := by
  unfold val_main_v41 val_main_call0_v0 val_main_call0_cst
  rw [host_relu, v40_eq]

/-- The edge network's second layer. -/
theorem v45_eq (x0 : F32 S50000x128) (x1 : F32 S50000x3) (x2 : I32 S2x600000) (x3 : F32 S600000x8) (x4 : F32 S265x128) (x5 : F32 S128) (x6 : F32 S128x128) (x7 : F32 S128) :
    val_main_v45 (F := Ideal) x0 x1 x2 x3 x4 x5 x6 x7 = biased (val_main_v41 (F := Ideal) x0 x1 x2 x3 x4 x5) x6 (rowOf x7) := by
  unfold val_main_v45 val_main_v44 val_main_v43 val_main_v42
  exact host_layer (a := 600000) (k := 128) (n := 128) _ plain_e2 _ x6 x7 _ _ _

theorem v46_eq (x0 : F32 S50000x128) (x1 : F32 S50000x3) (x2 : I32 S2x600000) (x3 : F32 S600000x8) (x4 : F32 S265x128) (x5 : F32 S128) (x6 : F32 S128x128) (x7 : F32 S128) :
    val_main_v46 (F := Ideal) x0 x1 x2 x3 x4 x5 x6 x7
      = relu (biased (val_main_v41 (F := Ideal) x0 x1 x2 x3 x4 x5) x6 (rowOf x7)) := by
  unfold val_main_v46 val_main_call1_v0 val_main_call1_cst
  rw [host_relu, v45_eq]

/-- The node network's first layer before its rectifier. -/
theorem v54_eq (x0 : F32 S50000x128) (x1 : F32 S50000x3) (x2 : I32 S2x600000) (x3 : F32 S600000x8) (x4 : F32 S265x128) (x5 : F32 S128) (x6 : F32 S128x128) (x7 : F32 S128) (x8 : F32 S256x128) (x9 : F32 S128) :
    val_main_v54 (F := Ideal) x0 x1 x2 x3 x4 x5 x6 x7 x8 x9 = biased (val_main_v50 (F := Ideal) x0 x1 x2 x3 x4 x5 x6 x7) x8 (rowOf x9) := by
  unfold val_main_v54 val_main_v53 val_main_v52 val_main_v51
  exact host_layer (a := 50000) (k := 256) (n := 128) _ plain_n1 _ x8 x9 _ _ _

theorem v55_eq (x0 : F32 S50000x128) (x1 : F32 S50000x3) (x2 : I32 S2x600000) (x3 : F32 S600000x8) (x4 : F32 S265x128) (x5 : F32 S128) (x6 : F32 S128x128) (x7 : F32 S128) (x8 : F32 S256x128) (x9 : F32 S128) :
    val_main_v55 (F := Ideal) x0 x1 x2 x3 x4 x5 x6 x7 x8 x9 = relu (biased (val_main_v50 (F := Ideal) x0 x1 x2 x3 x4 x5 x6 x7) x8 (rowOf x9)) := by
  unfold val_main_v55 val_main_call2_v0 val_main_call2_cst
  rw [host_relu, v54_eq]

/-- The node network's second layer (not rectified). -/
theorem v59_eq (x0 : F32 S50000x128) (x1 : F32 S50000x3) (x2 : I32 S2x600000) (x3 : F32 S600000x8) (x4 : F32 S265x128) (x5 : F32 S128) (x6 : F32 S128x128) (x7 : F32 S128) (x8 : F32 S256x128) (x9 : F32 S128) (x10 : F32 S128x128) (x11 : F32 S128) :
    val_main_v59 (F := Ideal) x0 x1 x2 x3 x4 x5 x6 x7 x8 x9 x10 x11 = biased (val_main_v55 (F := Ideal) x0 x1 x2 x3 x4 x5 x6 x7 x8 x9) x10 (rowOf x11) := by
  unfold val_main_v59 val_main_v58 val_main_v57 val_main_v56
  exact host_layer (a := 50000) (k := 128) (n := 128) _ plain_n2 _ x10 x11 _ _ _

/-! ## The networks' first layers: the joined product is the sum of the pieces' products -/

/-- The reference's joined per-edge array is the four stages side by side. -/
theorem v36_eq (x0 : F32 S50000x128) (x1 : F32 S50000x3) (x2 : I32 S2x600000) (x3 : F32 S600000x8) :
    val_main_v36 (F := Ideal) x0 x1 x2 x3
      = concatenate (⟨2, ![600000, 265]⟩ : Shape) 1
          (four (featuresAt x0 (senders x2)) (featuresAt x0 (receivers x2)) (sqLength x1 x2) x3)
          Cert.ReferenceIdeal.Gen.concatenates_S600000x128_S600000x128_S600000x1_S600000x8_S600000x265_d1 := by
  unfold val_main_v36
  rw [v28_eq, v35_eq, v21_eq]

/-- The edge network's first layer, entry by entry: the product with the joined array cut into its three ranges. -/
theorem edge_hidden (x0 : F32 S50000x128) (x1 : F32 S50000x3) (x2 : I32 S2x600000) (x3 : F32 S600000x8) (x4 : F32 S265x128) (x5 : F32 S128) :
    biased (val_main_v36 (F := Ideal) x0 x1 x2 x3) x4 (rowOf x5)
      = hidden3 (featuresAt x0 (senders x2)) (featuresAt x0 (receivers x2)) (lengthAttrs x1 x2 x3)
          (edgeW1 x4) (edgeW2 x4) (edgeW3 x4) (rowOf x5) := by
  funext i
  obtain ⟨r, q, rfl⟩ : ∃ (r : Fin 600000) (q : Fin 128), i = ix2 r q := ⟨i 0, i 1, eq_ix2 i⟩
  show prod (val_main_v36 (F := Ideal) x0 x1 x2 x3) x4 (ix2 r q) + rowOf x5 (ix2 (0 : Fin 1) q)
    = ((prod (featuresAt x0 (senders x2)) (edgeW1 x4) (ix2 r q) + prod (featuresAt x0 (receivers x2)) (edgeW2 x4) (ix2 r q))
        + prod (lengthAttrs x1 x2 x3) (edgeW3 x4) (ix2 r q)) + rowOf x5 (ix2 (0 : Fin 1) q)
  rw [v36_eq, prod_join4 _ _ _ _ _ Cert.KernelIdeal.Gen.concatenates_S600000x1_S600000x8_S600000x9_d1]
  rfl

/-- The reference's messages are the step's. -/
theorem v46_messages (x0 : F32 S50000x128) (x1 : F32 S50000x3) (x2 : I32 S2x600000) (x3 : F32 S600000x8) (x4 : F32 S265x128) (x5 : F32 S128) (x6 : F32 S128x128) (x7 : F32 S128) :
    val_main_v46 (F := Ideal) x0 x1 x2 x3 x4 x5 x6 x7 = messages x0 x1 x2 x3 x4 x5 x6 x7 := by
  rw [v46_eq, v41_eq, edge_hidden]
  rfl

/-- The reference's joined per-node array is the features beside the summed messages. -/
theorem v50_eq (x0 : F32 S50000x128) (x1 : F32 S50000x3) (x2 : I32 S2x600000) (x3 : F32 S600000x8) (x4 : F32 S265x128) (x5 : F32 S128) (x6 : F32 S128x128) (x7 : F32 S128) :
    val_main_v50 (F := Ideal) x0 x1 x2 x3 x4 x5 x6 x7
      = concatenate (⟨2, ![50000, 256]⟩ : Shape) 1
          [⟨S50000x128, x0⟩, ⟨S50000x128, summed x2 (messages x0 x1 x2 x3 x4 x5 x6 x7)⟩]
          Cert.ReferenceIdeal.Gen.concatenates_S50000x128_S50000x128_S50000x256_d1 := by
  unfold val_main_v50
  rw [v49_eq, v46_messages]

/-- The node network's first layer, entry by entry: the product with the joined array cut into its two ranges. -/
theorem node_hidden (x0 : F32 S50000x128) (x1 : F32 S50000x3) (x2 : I32 S2x600000) (x3 : F32 S600000x8) (x4 : F32 S265x128) (x5 : F32 S128) (x6 : F32 S128x128) (x7 : F32 S128) (x8 : F32 S256x128) (x9 : F32 S128) :
    biased (val_main_v50 (F := Ideal) x0 x1 x2 x3 x4 x5 x6 x7) x8 (rowOf x9)
      = hidden2 x0 (summed x2 (messages x0 x1 x2 x3 x4 x5 x6 x7)) (nodeW1 x8) (nodeW2 x8) (rowOf x9) := by
  funext i
  obtain ⟨r, q, rfl⟩ : ∃ (r : Fin 50000) (q : Fin 128), i = ix2 r q := ⟨i 0, i 1, eq_ix2 i⟩
  show prod (val_main_v50 (F := Ideal) x0 x1 x2 x3 x4 x5 x6 x7) x8 (ix2 r q) + rowOf x9 (ix2 (0 : Fin 1) q)
    = (prod x0 (nodeW1 x8) (ix2 r q) + prod (summed x2 (messages x0 x1 x2 x3 x4 x5 x6 x7)) (nodeW2 x8) (ix2 r q))
        + rowOf x9 (ix2 (0 : Fin 1) q)
  rw [v50_eq, prod_join2]

/-! ## The reference's result -/

/-- The reference program's result is the step's one function of the twelve arrays. -/
theorem reference_is_result (x0 : F32 S50000x128) (x1 : F32 S50000x3) (x2 : I32 S2x600000) (x3 : F32 S600000x8) (x4 : F32 S265x128) (x5 : F32 S128) (x6 : F32 S128x128) (x7 : F32 S128) (x8 : F32 S256x128) (x9 : F32 S128) (x10 : F32 S128x128) (x11 : F32 S128) :
    val_main_v59 (F := Ideal) x0 x1 x2 x3 x4 x5 x6 x7 x8 x9 x10 x11 = result x0 x1 x2 x3 x4 x5 x6 x7 x8 x9 x10 x11 := by
  rw [v59_eq, v55_eq, node_hidden]
  rfl

end Cert.Step.Ref

end
-- ==== Proof.lean ====
/-
  One message-passing step of a graph network: the kernel against its reference, on the extended reals.

  Both programs gather the features and coordinates of every edge's end points, form the squared length of the edge,
  run a two-layer rectified network on (sender features, receiver features, squared length, edge attributes) to get a
  message per edge, add the messages into their senders' rows, and run a two-layer network on (node features, summed
  messages).  The reference joins the operands of each first layer side by side and multiplies by the whole weight
  matrix; the kernel multiplies each operand by the rows of the weight matrix that meet it and adds the products:
      [A | B | C] W = A W[0:128] + B W[128:256] + C W[256:265],        [X | S] W = X W[0:128] + S W[128:256].
  A sum over the joined columns is the sum of the sums over each piece's columns — addition of extended reals is
  commutative and associative, which is all this takes; no entry needs to be finite.  Rounding an operand to bfloat16
  before a product is no change of an extended real.

  The kernel runs as two regions (150 blocks of 4000 edges, 10 blocks of 5000 nodes) among host operations; a row of
  either network depends only on the same row of its per-row operands, so each block written back is that block of the
  network of the whole arrays, and the blocks tile the outputs (EdgeRegion, NodeRegion, KernelValue).  The reference's
  operations are read one at a time (RefBridge).  Both results are `Cert.Step.result` of the arguments (Stages).
-/
import proofs.«167818_j2774548873773_2_alg».proof.Defs
import proofs.«167818_j2774548873773_2_alg».proof.Proof.Gen.Kernel
import proofs.«167818_j2774548873773_2_alg».proof.Proof.Gen.Kernel.Skeleton
import proofs.«167818_j2774548873773_2_alg».proof.Proof.Gen.Kernel.Launch
import proofs.«167818_j2774548873773_2_alg».proof.Proof.Gen.Kernel.Points
import proofs.«167818_j2774548873773_2_alg».proof.Proof.Gen.Kernel.Frame
import proofs.«167818_j2774548873773_2_alg».proof.Proof.Gen.KernelIdeal
import proofs.«167818_j2774548873773_2_alg».proof.Proof.Gen.KernelIdeal.Skeleton
import proofs.«167818_j2774548873773_2_alg».proof.Proof.Gen.KernelIdeal.Launch
import proofs.«167818_j2774548873773_2_alg».proof.Proof.Gen.KernelIdeal.Points
import proofs.«167818_j2774548873773_2_alg».proof.Proof.Gen.KernelIdeal.Frame
import proofs.«167818_j2774548873773_2_alg».proof.Proof.Gen.ReferenceIdeal
import proofs.«167818_j2774548873773_2_alg».proof.Proof.Gen.ReferenceIdeal.Run
import proofs.«167818_j2774548873773_2_alg».proof.Proof.Gen.ReferenceIdeal.Read
import proofs.«167818_j2774548873773_2_alg».proof.Proof.Gen.Pre_finite_inputs
import proofs.«167818_j2774548873773_2_alg».proof.Proof.KernelValue
import proofs.«167818_j2774548873773_2_alg».proof.Proof.RefBridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the step's result of those arguments. -/
theorem algebraic : Cert.algebraic_KernelIdeal_ReferenceIdeal := by
  intro m ρ m' ρ' _ hagree
  refine ⟨fun c => Cert.Step.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.ResultValue.result_value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, Cert.Step.Ref.reference_is_result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, trivial, algebraic⟩

end Cert.Proof

end
